-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_v83 : IVec S_ 1) (main_v84 : FVec F S128x10 .f32) (main_cst_32 : FVec F S_ .f32) : IVec S_ 1 :=
  let main_v85 : FVec F S128x10 .f32 := broadcastInDim S128x10 ![] bcast_S_S128x10 main_cst_32
  let main_v86 : IVec S128x10 1 := cmpf .olt main_v84 main_v85
  let main_c_33 : IVec S_ 1 := constantI S_ 1 1#1
  let main_v87 : IVec S_ 1 := (fun x v => Host.reduce IntOp.andi x v reducesTo_S128x10_S_d0_1 h_S_) main_v86 main_c_33
  let main_v88 : IVec S_ 1 := andi main_v83 main_v87
  main_v88

def fn_part4 {F : FTy → Type} [FloatOps F] (main_arg15 : FVec F S128 .f32) (main_arg16 : FVec F S128x10 .f32) (main_arg17 : FVec F S10 .f32) (main_arg18 : FVec F S128x10 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x10 .f32 := Host.absf main_arg16
  let main_cst_28 : FVec F S_ .f32 := constant S_ .f32 0x7F800000#32
  let main_v75 : FVec F S128x10 .f32 := broadcastInDim S128x10 ![] bcast_S_S128x10 main_cst_28
  let main_v76 : IVec S128x10 1 := cmpf .olt main_v74 main_v75
  let main_c_29 : IVec S_ 1 := constantI S_ 1 1#1
  let main_v77 : IVec S_ 1 := (fun x v => Host.reduce IntOp.andi x v reducesTo_S128x10_S_d0_1 h_S_) main_v76 main_c_29
  let main_v78 : IVec S_ 1 := andi main_v73 main_v77
  let main_v79 : FVec F S10 .f32 := Host.absf main_arg17
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S128x10 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x10 .f32) (main_arg17 : FVec F S10 .f32) (main_arg18 : FVec F S128x10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x10 .f32) (main_arg17 : FVec F S10 .f32) (main_arg18 : FVec F S128x10 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x10 .f32) (main_arg17 : FVec F S10 .f32) (main_arg18 : FVec F S128x10 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x64 .f32) (main_arg1 : IVec S2x800000 32) (main_arg2 : FVec F S64x128 .f32) (main_arg3 : FVec F S128 .f32) (main_arg4 : FVec F S64x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x10 .f32) (main_arg17 : FVec F S10 .f32) (main_arg18 : FVec F S128x10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩
abbrev S800000x128 : Shape := ⟨2, ![800000, 128]⟩
abbrev S50000x10 : Shape := ⟨2, ![50000, 10]⟩
abbrev S5000x10 : Shape := ⟨2, ![5000, 10]⟩
abbrev S1x10 : Shape := ⟨2, ![1, 10]⟩
abbrev S5000 : Shape := ⟨1, ![5000]⟩
abbrev S5000x1 : Shape := ⟨2, ![5000, 1]⟩

abbrev nBuf : Space → Nat
  | .hbm => 81
  | .vmem => 35
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x10, .f32⟩
  | .hbm, ⟨17, _⟩ => ⟨S10, .f32⟩
  | .hbm, ⟨18, _⟩ => ⟨S128x10, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S128, .f32⟩
  | .local _ .vmem, ⟨6, _⟩ => ⟨S64x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x10, .f32⟩
  | .local _ .vmem, ⟨31, _⟩ => ⟨S10, .f32⟩
  | .local _ .vmem, ⟨32, _⟩ => ⟨S128x10, .f32⟩
  | .local _ .vmem, ⟨33, _⟩ => ⟨S5000x10, .f32⟩
  | .local _ .vmem, ⟨34, _⟩ => ⟨S5000x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_7 : Ref sig .tc := ⟨.hbm, 65, rfl⟩
abbrev main_v37 : Ref sig .tc := ⟨.hbm, 66, rfl⟩
abbrev main_v38 : Ref sig .tc := ⟨.hbm, 67, rfl⟩
abbrev main_c_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x10.size a ≤ S128x10.size a
  hwx2_2 : ∀ i : grid2.Coords, EltTy.bits .f32 = 32 ∨ (Rect.block (s := S128x10) S128x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10.size a ≤ S10.size a
  hwx2_3 : ∀ i : grid2.Coords, EltTy.bits .f32 = 32 ∨ (Rect.block (s := S10) S10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x10.size a ≤ S128x10.size a
  hwx2_4 : ∀ i : grid2.Coords, EltTy.bits .f32 = 32 ∨ (Rect.block (s := S128x10) S128x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x10.size a ≤ S50000x10.size a
  hwx2_5 : ∀ i : grid2.Coords, EltTy.bits .f32 = 32 ∨ (Rect.block (s := S50000x10) S5000x10.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S128x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S128x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩
abbrev S50000x10 : Shape := ⟨2, ![50000, 10]⟩
abbrev S1x10 : Shape := ⟨2, ![1, 10]⟩

abbrev nBuf : Space → Nat
  | .hbm => 145
  | .vmem => 0
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S64x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128x10, .f32⟩
  | 17 => ⟨S10, .f32⟩
  | 18 => ⟨S128x10, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S_, .f32⟩
  | 43 => ⟨S50000x64, .f32⟩
  | 44 => ⟨S800000x1, .i32⟩
  | 45 => ⟨S50000x64, .f32⟩
  | 46 => ⟨S50000x64, .f32⟩
  | 47 => ⟨S50000x64, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S128, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S128, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S50000x128, .f32⟩
  | 123 => ⟨S50000x128, .f32⟩
  | 124 => ⟨S50000x10, .f32⟩
  | 125 => ⟨S1x10, .f32⟩
  | 126 => ⟨S50000x10, .f32⟩
  | 127 => ⟨S50000x10, .f32⟩
  | _ => ⟨S50000x64, .f32⟩

abbrev hbmTy0_1 (i : Nat) : BufTy := match i % 128 with
  | 0 => ⟨S50000x10, .f32⟩
  | 1 => ⟨S50000x10, .f32⟩
  | 2 => ⟨S_, .f32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x10, .f32⟩
  | 9 => ⟨S50000x10, .f32⟩
  | 10 => ⟨S50000x10, .f32⟩
  | 11 => ⟨S_, .f32⟩
  | 12 => ⟨S50000, .f32⟩
  | 13 => ⟨S50000x1, .f32⟩
  | 14 => ⟨S50000x1, .f32⟩
  | 15 => ⟨S50000x10, .f32⟩
  | 16 => ⟨S50000x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call0_cst : Ref sig .tc := ⟨.hbm, 68, rfl⟩
abbrev main_call0_v0 : Ref sig .tc := ⟨.hbm, 69, rfl⟩
abbrev main_v42 : Ref sig .tc := ⟨.hbm, 70, rfl⟩
abbrev main_c_5 : Ref sig .tc := ⟨.hbm, 71, rfl⟩
abbrev main_v43 : Ref sig .tc := ⟨.hbm, 72, rfl⟩
abbrev main_v44 : Ref sig .tc := ⟨.hbm, 73, rfl⟩
abbrev main_c_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_8 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call1_cst : Ref sig .tc := ⟨.hbm, 106, rfl⟩
abbrev main_call1_v0 : Ref sig .tc := ⟨.hbm, 107, rfl⟩
abbrev main_v74 : Ref sig .tc := ⟨.hbm, 108, rfl⟩
abbrev main_c_9 : Ref sig .tc := ⟨.hbm, 109, rfl⟩
abbrev main_v75 : Ref sig .tc := ⟨.hbm, 110, rfl⟩
abbrev main_v76 : Ref sig .tc := ⟨.hbm, 111, rfl⟩
abbrev main_c_10 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_11 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_call2_cst : Ref sig .tc := ⟨.hbm, 130, rfl⟩
abbrev main_call2_v0 : Ref sig .tc := ⟨.hbm, 131, rfl⟩
abbrev main_call2_cst_0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_cst_1 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_v93 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S50000x1_S50000x10_0_1 : S50000x1.BroadcastsInDim S50000x10 (![0, 1] : Fin 2 → Fin S50000x10.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x10_S50000x10_1_0_0_1_n_n_wf : DotDims.WF S50000x128 S128x10 S50000x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.KRun.lean ====
/-
  The idealized kernel's run with its result named.

  @main is six segments: three stretches of host operations, each followed by one row-tiled kernel launch. The
  memory at every segment boundary is a fold from the launch memory: a stretch applies its operations, a launch
  leaves each of its arrays at what its write-backs left. Every weakly fair execution terminates with every
  unscoped buffer at the last boundary's contents `W6`; read at the result buffer this names the result, and at the
  nineteen arguments it gives them back as launched.
-/
import proofs.«104926_j31714038513706_1_alg».proof.Proof.PatchedKernelIdealFrame

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.KernelIdeal.KRun

end
-- ==== Proof.RowMaps.lean ====
/-
  The network's dense maps, one entry at a time, over the extended reals.

  A hidden layer's entry at (node, column) depends on one row `a` of the aggregate, the same row `x` of the
  features, one column `wl`, `wr` of each weight matrix, and the column's bias and normalisation parameters:
      hidden = max (((a·wl + x·wr + bl) - mean) * (gamma * rsqrt (var + eps)) + beta) 0.
  The output layer's row of ten logits is `a·wl + x·wr + bl` per column, and its log-softmax at column q is
      (z q - M) - log (sum over j of exp (z j - M)),   M the maximum of the row taken from -∞.
  The only algebra used between the two programs: a sum of three terms may be associated either way
  (`add_right_comm` on the extended reals, where + is commutative and associative even at the infinities),
  `max (-∞) y = y`, and `0 + y = y`.
-/
import Idealize.ShloMosaic.PureOps.Ideal.Laws
import Idealize.ShloMosaic.Lib.ValueIdx

noncomputable section

namespace Sage

open Idealize.ShloMosaic

/-- `a·wl + x·wr + bl`: one entry of the layer before normalisation. -/
def affine {K : ℕ} (a x wl wr : Fin K → EReal) (bl : EReal) : EReal :=
  (∑ k, a k * wl k) + (∑ k, x k * wr k) + bl

/-- The same entry as the reference associates it: `(a·wl + bl) + x·wr`. -/
theorem affine_eq {K : ℕ} (a x wl wr : Fin K → EReal) (bl : EReal) :
    ((∑ k, a k * wl k) + bl) + (∑ k, x k * wr k) = affine a x wl wr bl :=
  add_right_comm _ _ _

/-- Normalise with the running statistics, then clamp at zero. -/
def bnRelu (z g b mn v : EReal) : EReal :=
  max ((z - mn) * (g * Ideal.rsqrt (v + Ideal.ofBits .f32 0x3727C5AC#32)) + b) (Ideal.ofBits .f32 0x00000000#32)

/-- One entry of a hidden layer. -/
def hidden {K : ℕ} (a x wl wr : Fin K → EReal) (bl g b mn v : EReal) : EReal :=
  bnRelu (affine a x wl wr bl) g b mn v

/-- The maximum of a row of ten, taken from -∞. -/
def rowMax (z : Fin 10 → EReal) : EReal :=
  (Finset.univ : Finset (Fin 10)).fold max (Ideal.ofBits .f32 0xFF800000#32) z

/-- The log-softmax of a row of ten logits, at column `q`. -/
def logSoftmax (z : Fin 10 → EReal) (q : Fin 10) : EReal :=
  (z q - rowMax z) - Ideal.log (∑ j, Ideal.exp (z j - rowMax z))

/-- The word 0xFF800000 is -∞, below everything. -/
theorem max_negInf (y : EReal) : max (Ideal.ofBits .f32 0xFF800000#32) y = y := by
  simp [Ideal.ofBits, Ideal.ieee]

/-- The zero word is 0. -/
theorem zero_word_add (y : EReal) : Ideal.ofBits .f32 0x00000000#32 + y = y := by
  rw [Ideal.ofBits_zero_f32, zero_add]

end Sage

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.LibMatrixLayout.lean ====
/-
  Three layout facts about matrices, read at an index given by coordinates.

  * A vector of `n` numbers laid out as one row (`[n] → [1, n]`) and repeated down `R` rows reads, at `(r, j)`, its
    entry `j`: how a bias is added to every row of a matrix.
  * Two matrices with the same number of rows set side by side (`[R, a]`, `[R, b]` → `[R, c]`) read, at `(r, q)`,
    the left one at `(r, q)` when `q < a` and the right one at `(r, q - a)` otherwise.
  * Two matrices with the same number of columns set one above the other (`[a, C]`, `[b, C]` → `[c, C]`) read, at
    `(q, d)`, the upper one at `(q, d)` when `q < a` and the lower one at `(q - a, d)` otherwise.
-/
import Idealize.ShloMosaic.Lib.Pipeline.Value
import Idealize.ShloMosaic.Lib.ValueLayout

namespace Idealize.ShloMosaic.MatrixLayout

open Idealize.ShloMosaic Idealize.ShloMosaic.ValueIdx

variable {α : Type}

/-- One row repeated down the rows of a matrix. -/
theorem row_broadcast_apply {R n : ℕ} (v : (⟨1, ![n]⟩ : Shape).Idx → α)
    (h1 : (⟨1, ![n]⟩ : Shape).ShapeCasts ⟨2, ![1, n]⟩) (h2 : (⟨2, ![1, n]⟩ : Shape).Broadcasts ⟨2, ![R, n]⟩)
    (r : Fin R) (j : Fin n) :
    broadcastTo ⟨2, ![R, n]⟩ (shapeCast ⟨2, ![1, n]⟩ v h1) h2 (ix2 r j) = v (ix1 j) :=
  (broadcastTo_1b_ab_apply _ h2 r j).trans (shapeCast_a_1a_apply v h1 0 j)

/-- Side by side, left part. -/
theorem beside_left {R a b c : ℕ} (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ 1) (r : Fin R) (q : Fin c) (hq : q.val < a) :
    concatenate ⟨2, ![R, c]⟩ 1 [⟨⟨2, ![R, a]⟩, x₁⟩, ⟨⟨2, ![R, b]⟩, x₂⟩] h (ix2 r q) = x₁ (ix2 r ⟨q.val, hq⟩) :=
  concatenate_pair_apply_left (1 : Fin 2) x₁ x₂ h (ix2 r q) rfl (ix2 r ⟨q.val, hq⟩) fun d => by
    match d with
    | ⟨0, _⟩ => rfl
    | ⟨1, _⟩ => rfl

/-- Side by side, right part. -/
theorem beside_right {R a b c : ℕ} (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ 1) (r : Fin R) (q : Fin c) (hq : a ≤ q.val)
    (hb : q.val - a < b) :
    concatenate ⟨2, ![R, c]⟩ 1 [⟨⟨2, ![R, a]⟩, x₁⟩, ⟨⟨2, ![R, b]⟩, x₂⟩] h (ix2 r q) = x₂ (ix2 r ⟨q.val - a, hb⟩) :=
  concatenate_pair_apply_right (1 : Fin 2) x₁ x₂ h (ix2 r q) rfl rfl (ix2 r ⟨q.val - a, hb⟩)
    (fun d hd => by
      match d with
      | ⟨0, _⟩ => rfl
      | ⟨1, _⟩ => exact absurd rfl hd)
    (by show q.val - a + a = q.val; omega)

/-- One above the other, upper part. -/
theorem above_upper {C a b c : ℕ} (x₁ : (⟨2, ![a, C]⟩ : Shape).Idx → α) (x₂ : (⟨2, ![b, C]⟩ : Shape).Idx → α)
    (h : Shape.Concatenates [(⟨2, ![a, C]⟩ : Shape), ⟨2, ![b, C]⟩] ⟨2, ![c, C]⟩ 0) (q : Fin c) (d : Fin C) (hq : q.val < a) :
    concatenate ⟨2, ![c, C]⟩ 0 [⟨⟨2, ![a, C]⟩, x₁⟩, ⟨⟨2, ![b, C]⟩, x₂⟩] h (ix2 q d) = x₁ (ix2 ⟨q.val, hq⟩ d) :=
  concatenate_pair_apply_left (0 : Fin 2) x₁ x₂ h (ix2 q d) rfl (ix2 ⟨q.val, hq⟩ d) fun e => by
    match e with
    | ⟨0, _⟩ => rfl
    | ⟨1, _⟩ => rfl

/-- One above the other, lower part. -/
theorem above_lower {C a b c : ℕ} (x₁ : (⟨2, ![a, C]⟩ : Shape).Idx → α) (x₂ : (⟨2, ![b, C]⟩ : Shape).Idx → α)
    (h : Shape.Concatenates [(⟨2, ![a, C]⟩ : Shape), ⟨2, ![b, C]⟩] ⟨2, ![c, C]⟩ 0) (q : Fin c) (d : Fin C) (hq : a ≤ q.val)
    (hb : q.val - a < b) :
    concatenate ⟨2, ![c, C]⟩ 0 [⟨⟨2, ![a, C]⟩, x₁⟩, ⟨⟨2, ![b, C]⟩, x₂⟩] h (ix2 q d) = x₂ (ix2 ⟨q.val - a, hb⟩ d) :=
  concatenate_pair_apply_right (0 : Fin 2) x₁ x₂ h (ix2 q d) rfl rfl (ix2 ⟨q.val - a, hb⟩ d)
    (fun e he => by
      match e with
      | ⟨0, _⟩ => exact absurd rfl he
      | ⟨1, _⟩ => rfl)
    (by show q.val - a + a = q.val; omega)

end Idealize.ShloMosaic.MatrixLayout
-- ==== Proof.KBody0.lean ====
/-
  The kernel body of hidden layer 0, read at one entry.

  The body computes, on a tile of 5000 rows, two matrix products into zero accumulators (its operands cast to
  bfloat16, which changes nothing at the extended reals), adds them and the bias row, normalises with the four
  parameter rows and clamps at zero. Read at (row r of the tile, column q) this is the entry formula `Sage.hidden`
  of row r of the two tile operands, column q of the two weight matrices and entry q of the parameter vectors:
  a product into a zero accumulator is the sum over the contracted index, and a vector cast to one row and
  broadcast down the rows reads its entry of the column.
-/
import proofs.«104926_j31714038513706_1_alg».proof.Proof.Gen.KernelIdeal.Skeleton
import proofs.«104926_j31714038513706_1_alg».proof.Proof.RowMaps
import proofs.«104926_j31714038513706_1_alg».proof.Proof.LibPlainDot
import proofs.«104926_j31714038513706_1_alg».proof.Proof.LibMatrixLayout
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.TcCoe Idealize.ShloMosaic.ValueIdx

/-- Hidden layer 0's stored tile at (r, q). -/
theorem pay0_apply (a x : Vec Ideal S5000x64 .f32) (wl wr : Vec Ideal S64x128 .f32) (bl g b mn v : Vec Ideal S128 .f32)
    (r : Fin 5000) (q : Fin 128) :
    k0_pay1 (F := Ideal) a x wl wr bl g b mn v (ix2 r q)
      = Sage.hidden (fun k : Fin 64 => a (ix2 r k)) (fun k => x (ix2 r k)) (fun k => wl (ix2 k q)) (fun k => wr (ix2 k q))
          (bl (ix1 q)) (g (ix1 q)) (b (ix1 q)) (mn (ix1 q)) (v (ix1 q)) := by
  have e1 : ∀ (l : FVec Ideal S5000x64 .bf16) (w : FVec Ideal S64x128 .bf16),
      matmul dot_S5000x64_S64x128_S5000x128_1_0_0_1_n_n none l w (constant S5000x128 .f32 0x00000000#32) (ix2 r q)
        = ∑ k : Fin 64, l (ix2 r k) * w (ix2 k q) :=
    fun l w => PlainDot.matmul_zero_apply (M := 5000) (K := 64) (N := 128) none l w r q
  have eb : ∀ u : Vec Ideal S128 .f32,
      broadcastTo S5000x128 (shapeCast S1x128 u shapeCasts_S128_S1x128) broadcasts_S1x128_S5000x128 (ix2 r q) = u (ix1 q) :=
    fun u => MatrixLayout.row_broadcast_apply u _ _ r q
  have er : ∀ u : Vec Ideal S128 .f32, shapeCast S1x128 u shapeCasts_S128_S1x128 (ix2 (0 : Fin 1) q) = u (ix1 q) :=
    fun u => shapeCast_a_1a_apply u _ 0 q
  have es : ∀ w : FVec Ideal S1x128 .f32, broadcastTo S5000x128 w broadcasts_S1x128_S5000x128 (ix2 r q) = w (ix2 (0 : Fin 1) q) :=
    fun w => broadcastTo_1b_ab_apply w _ r q
  have hr : ∀ (y : FVec Ideal S1x128 .f32) (i : S1x128.Idx), rsqrt y i = Ideal.rsqrt (y i) := fun _ _ => rfl
  unfold k0_pay1 Sage.hidden Sage.bnRelu Sage.affine
  simp only [shapeCast_self, maximumf_apply, addf_apply, subf_apply, mulf_apply, broadcast_apply, truncf_apply,
    e1, eb, es, hr, er]
  rfl

end Cert.KernelIdeal.Body

end
-- ==== Proof.Layers.lean ====
/-
  The reference's @main as a composition of whole-array functions.

  A GraphSAGE layer is "average the neighbours' rows, then a dense row map": with `src` and `dst` the two rows of
  `edge_index`, the aggregate of a feature matrix `h` is, row by row,
      agg h = (the sum over edges e with dst e = n of h[src e]) / max (indegree n) 1,
  computed by a gather of rows, an accumulating scatter and a division. The dense map of a hidden layer is
      relu (((agg h · Wl + bl + h · Wr) - mean) * (gamma * rsqrt (var + eps)) + beta),
  and of the output layer the log-softmax over the ten logits of  agg h · Wl + bl + h · Wr.
  Here each of these is ONE definition over whole arrays, spelt with the reference's own operations, and the
  reference's result is their composition (`net`; RefRun.lean reads the run back to it): the gather / scatter / divide steps are never opened
  afterwards — both programs apply the same ones to what the dense maps produce.
-/
import proofs.«104926_j31714038513706_1_alg».proof.Proof.Gen.ReferenceIdeal
import Idealize.ShloMosaic.Lib.StableHlo.Run

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-- The source node of every edge: row 0 of `edge_index`. -/
def srcRow (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The destination node of every edge: row 1 of `edge_index`. -/
def dstRow (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The divisor of the mean, as a column: the number of edges into each node, at least one. -/
def degCol (ei : (⟨S2x800000, .i32⟩ : BufTy).Contents (Elt F)) : (⟨S50000x1, .f32⟩ : BufTy).Contents (Elt F) :=
  broadcastInDim S50000x1 ![0] bcast_S50000_S50000x1_0
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 (dstRow ei))
        (broadcastInDim S800000 ![] bcast_S_S800000 (constant S_ .f32 0x3F800000#32)))
      (broadcastInDim S50000 ![] bcast_S_S50000 (constant S_ .f32 0x3F800000#32)))

/-- The gather's row indices from the source row: a negative node number counted from the end. -/
def idxOf (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32)))
      src)

/-- The mean of the neighbours' rows of a 64-column feature matrix, from the edge rows and the divisor column. -/
def aggOf64 (x : (⟨S50000x64, .f32⟩ : BufTy).Contents (Elt F)) (src dst : (⟨S800000, .i32⟩ : BufTy).Contents (Elt F))
    (deg : (⟨S50000x1, .f32⟩ : BufTy).Contents (Elt F)) : (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst)
      (Host.gather gather_S50000x64_S800000x1_S800000x64_1_0_n_n_0_1_164 x (idxOf src)))
    (broadcastInDim S50000x64 ![0, 1] bcast_S50000x1_S50000x64_0_1 deg)

/-- The same for a 128-column feature matrix. -/
def aggOf128 (h : (⟨S50000x128, .f32⟩ : BufTy).Contents (Elt F)) (src dst : (⟨S800000, .i32⟩ : BufTy).Contents (Elt F))
    (deg : (⟨S50000x1, .f32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h (idxOf src)))
    (broadcastInDim S50000x128 ![0, 1] bcast_S50000x1_S50000x128_0_1 deg)

/-- The mean of the neighbours' rows of a 64-column feature matrix. -/
def agg64 (x : (⟨S50000x64, .f32⟩ : BufTy).Contents (Elt F)) (ei : (⟨S2x800000, .i32⟩ : BufTy).Contents (Elt F)) :
    (⟨S50000x64, .f32⟩ : BufTy).Contents (Elt F) :=
  aggOf64 x (srcRow ei) (dstRow ei) (degCol ei)

/-- The mean of the neighbours' rows of a 128-column feature matrix. -/
def agg128 (h : (⟨S50000x128, .f32⟩ : BufTy).Contents (Elt F)) (ei : (⟨S2x800000, .i32⟩ : BufTy).Contents (Elt F)) :
    (⟨S50000x128, .f32⟩ : BufTy).Contents (Elt F) :=
  aggOf128 h (srcRow ei) (dstRow ei) (degCol ei)

/-- A vector of 128 entries repeated down the 50000 rows. -/
def rows128 (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The normalisation's scale per column: gamma * rsqrt (var + eps). -/
def bnScale (g v : (⟨S128, .f32⟩ : BufTy).Contents (Elt F)) : (⟨S128, .f32⟩ : BufTy).Contents (Elt F) :=
  mulf g (Host.rsqrt (addf v (broadcastInDim S128 ![] bcast_S_S128 (constant S_ .f32 0x3727C5AC#32))))

/-- Normalise and clamp at zero: relu ((z - mean) * scale + beta). -/
def bnRelu (z : (⟨S50000x128, .f32⟩ : BufTy).Contents (Elt F)) (g b mn v : (⟨S128, .f32⟩ : BufTy).Contents (Elt F)) :
    (⟨S50000x128, .f32⟩ : BufTy).Contents (Elt F) :=
  maximumf (addf (mulf (subf z (rows128 mn)) (rows128 (bnScale g v))) (rows128 b))
    (broadcastInDim S50000x128 ![] bcast_S_S50000x128 (constant S_ .f32 0x00000000#32))

/-- The first hidden layer's dense map, from the aggregate `a` and the features `x` (64 columns). -/
def dense0 (a x : (⟨S50000x64, .f32⟩ : BufTy).Contents (Elt F)) (wl : (⟨S64x128, .f32⟩ : BufTy).Contents (Elt F))
    (bl : (⟨S128, .f32⟩ : BufTy).Contents (Elt F)) (wr : (⟨S64x128, .f32⟩ : BufTy).Contents (Elt F))
    (g b mn v : (⟨S128, .f32⟩ : BufTy).Contents (Elt F)) : (⟨S50000x128, .f32⟩ : BufTy).Contents (Elt F) :=
  bnRelu (addf (addf (Host.dotGeneral dot_S50000x64_S64x128_S50000x128_1_0_0_1_n_n none a wl) (rows128 bl))
    (Host.dotGeneral dot_S50000x64_S64x128_S50000x128_1_0_0_1_n_n none x wr)) g b mn v

/-- The second hidden layer's dense map (128 columns in). -/
def dense1 (a h : (⟨S50000x128, .f32⟩ : BufTy).Contents (Elt F)) (wl : (⟨S128x128, .f32⟩ : BufTy).Contents (Elt F))
    (bl : (⟨S128, .f32⟩ : BufTy).Contents (Elt F)) (wr : (⟨S128x128, .f32⟩ : BufTy).Contents (Elt F))
    (g b mn v : (⟨S128, .f32⟩ : BufTy).Contents (Elt F)) : (⟨S50000x128, .f32⟩ : BufTy).Contents (Elt F) :=
  bnRelu (addf (addf (Host.dotGeneral dot_S50000x128_S128x128_S50000x128_1_0_0_1_n_n none a wl) (rows128 bl))
    (Host.dotGeneral dot_S50000x128_S128x128_S50000x128_1_0_0_1_n_n none h wr)) g b mn v

/-- The ten logits of every node. -/
def logits (a h : (⟨S50000x128, .f32⟩ : BufTy).Contents (Elt F)) (wl : (⟨S128x10, .f32⟩ : BufTy).Contents (Elt F))
    (bl : (⟨S10, .f32⟩ : BufTy).Contents (Elt F)) (wr : (⟨S128x10, .f32⟩ : BufTy).Contents (Elt F)) :
    (⟨S50000x10, .f32⟩ : BufTy).Contents (Elt F) :=
  addf (addf (Host.dotGeneral dot_S50000x128_S128x10_S50000x10_1_0_0_1_n_n none a wl)
      (broadcastInDim S50000x10 ![0, 1] bcast_S1x10_S50000x10_0_1 (broadcastInDim S1x10 ![1] bcast_S10_S1x10_1 bl)))
    (Host.dotGeneral dot_S50000x128_S128x10_S50000x10_1_0_0_1_n_n none h wr)

/-- The logits less their row maximum. -/
def shifted (z : (⟨S50000x10, .f32⟩ : BufTy).Contents (Elt F)) : (⟨S50000x10, .f32⟩ : BufTy).Contents (Elt F) :=
  subf z (broadcastInDim S50000x10 ![0, 1] bcast_S50000x1_S50000x10_0_1 (broadcastInDim S50000x1 ![0] bcast_S50000_S50000x1_0
    (maximumf (broadcastInDim S50000 ![] bcast_S_S50000 (constant S_ .f32 0xFF800000#32))
      (Host.reduce FloatOps.maximumf z (constant S_ .f32 0xFF800000#32) reducesTo_S50000x10_S50000_d1 h_S_))))

/-- The log-softmax of every row: the shifted logits less the logarithm of the sum of their exponentials. -/
def logSoftmax (z : (⟨S50000x10, .f32⟩ : BufTy).Contents (Elt F)) : (⟨S50000x10, .f32⟩ : BufTy).Contents (Elt F) :=
  subf (shifted z) (broadcastInDim S50000x10 ![0, 1] bcast_S50000x1_S50000x10_0_1 (Host.log (broadcastInDim S50000x1 ![0] bcast_S50000_S50000x1_0
    (Host.reduceAdd (Host.exp (shifted z)) (constant S_ .f32 0x00000000#32) reducesTo_S50000x10_S50000_d1 h_S_))))

/-- The whole network over whole arrays. -/
def net (x : (⟨S50000x64, .f32⟩ : BufTy).Contents (Elt F)) (ei : (⟨S2x800000, .i32⟩ : BufTy).Contents (Elt F))
    (wl0 : (⟨S64x128, .f32⟩ : BufTy).Contents (Elt F)) (bl0 : (⟨S128, .f32⟩ : BufTy).Contents (Elt F)) (wr0 : (⟨S64x128, .f32⟩ : BufTy).Contents (Elt F))
    (g0 b0 m0 v0 : (⟨S128, .f32⟩ : BufTy).Contents (Elt F))
    (wl1 : (⟨S128x128, .f32⟩ : BufTy).Contents (Elt F)) (bl1 : (⟨S128, .f32⟩ : BufTy).Contents (Elt F)) (wr1 : (⟨S128x128, .f32⟩ : BufTy).Contents (Elt F))
    (g1 b1 m1 v1 : (⟨S128, .f32⟩ : BufTy).Contents (Elt F))
    (wl2 : (⟨S128x10, .f32⟩ : BufTy).Contents (Elt F)) (bl2 : (⟨S10, .f32⟩ : BufTy).Contents (Elt F)) (wr2 : (⟨S128x10, .f32⟩ : BufTy).Contents (Elt F)) :
    (⟨S50000x10, .f32⟩ : BufTy).Contents (Elt F) :=
  let h0 := dense0 (agg64 x ei) x wl0 bl0 wr0 g0 b0 m0 v0
  let h1 := dense1 (agg128 h0 ei) h0 wl1 bl1 wr1 g1 b1 m1 v1
  logSoftmax (logits (agg128 h1 ei) h1 wl2 bl2 wr2)

end Cert.ReferenceIdeal.Layers

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.LibBroadcastInDim.lean ====
/-
  The host's `broadcast_in_dim` read at an index given by coordinates, in the shapes a row-wise or column-wise scale
  or bias takes: a vector of length `a` placed as an `[a, 1]` column (`dims = [0]`) or of length `b` as a `[1, b]`
  row (`dims = [1]`); an `[a, 1]` column repeated across `b` columns and a `[1, b]` row repeated down `a` rows
  (`dims = [0, 1]`); and a scalar spread over any shape (`dims = []`). Each reads the operand at the coordinates the
  result's index has on the axes `dims` names, and at `0` on the operand's unit axes. For every extent.
-/
import Idealize.ShloMosaic.Lib.Pipeline.Value
import Idealize.ShloMosaic.Lib.ValueIdx

namespace Idealize.ShloMosaic.BroadcastInDimAt

open Idealize.ShloMosaic Idealize.ShloMosaic.ValueIdx

variable {α : Type}

/-- A vector as a column: entry `(p, u)` is the vector's entry `p`. -/
theorem vec_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) :=
  broadcastInDim_apply _ h v (ix2 p u) (ix1 p) fun ax => by
    match ax with
    | ⟨0, _⟩ =>
      show p.val = if a = 1 then 0 else p.val
      split
      · have := p.isLt; omega
      · rfl

/-- A vector as a row: entry `(u, q)` is the vector's entry `q`. -/
theorem vec_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) :=
  broadcastInDim_apply _ h v (ix2 u q) (ix1 q) fun ax => by
    match ax with
    | ⟨0, _⟩ =>
      show q.val = if b = 1 then 0 else q.val
      split
      · have := q.isLt; omega
      · rfl

/-- A column repeated across the columns: entry `(p, q)` is the column's entry of row `p`. -/
theorem col_mat_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) :=
  broadcastInDim_apply _ h v (ix2 p q) (ix2 p (0 : Fin 1)) fun ax => by
    match ax with
    | ⟨0, _⟩ =>
      show p.val = if a = 1 then 0 else p.val
      split
      · have := p.isLt; omega
      · rfl
    | ⟨1, _⟩ => rfl

/-- A row repeated down the rows: entry `(p, q)` is the row's entry of column `q`. -/
theorem row_mat_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) :=
  broadcastInDim_apply _ h v (ix2 p q) (ix2 (0 : Fin 1) q) fun ax => by
    match ax with
    | ⟨0, _⟩ => rfl
    | ⟨1, _⟩ =>
      show q.val = if b = 1 then 0 else q.val
      split
      · have := q.isLt; omega
      · rfl

/-- A scalar spread over a shape: every entry is the scalar. -/
theorem scalar_apply {t : Shape} (v : (⟨0, ![]⟩ : Shape).Idx → α)
    (h : (⟨0, ![]⟩ : Shape).BroadcastsInDim t (![] : Fin 0 → Fin t.rank)) (i : t.Idx) :
    broadcastInDim t (![] : Fin 0 → Fin t.rank) h v i = v ix0 :=
  broadcastInDim_apply _ h v i ix0 fun ax => ax.elim0

end Idealize.ShloMosaic.BroadcastInDimAt
-- ==== Proof.LibDenseRows.lean ====
/-
  Reading a matrix product with biases, and a row reduction, at one entry — for every extent.

  These are the shape-generic steps a dense layer needs on either side of a kernel-against-reference claim at the
  extended reals: a vector laid as a row and repeated down the rows, or laid as a column and repeated across the
  columns (by the host's `broadcast_in_dim` or by the kernel's `shape_cast` + `broadcast`), read at (p, q); and a
  reduction of an [R, n] matrix along its rows — a sum, or a maximum folded from an initial value — read at row p as
  the sum / fold over the n entries of that row, for the kernel's `multi_reduction` and for the host's `reduce`.
-/
import Idealize.ShloMosaic.PureOps.Ideal.Laws
import Idealize.ShloMosaic.Lib.ValueIdx
import proofs.«104926_j31714038513706_1_alg».proof.Proof.LibMatrixLayout
import proofs.«104926_j31714038513706_1_alg».proof.Proof.LibColumn
import proofs.«104926_j31714038513706_1_alg».proof.Proof.LibBroadcastInDim

noncomputable section

namespace Idealize.ShloMosaic.DenseRows

open Idealize.ShloMosaic Idealize.ShloMosaic.ValueIdx

variable {α : Type}

/-- The host's row of biases: a vector placed as a [1, n] row and repeated down R rows, at (p, q). -/
theorem hostRows_apply {R n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (p : Fin R) (q : Fin n) :
    broadcastInDim ⟨2, ![R, n]⟩ (![0, 1] : Fin 2 → Fin 2) h2 (broadcastInDim ⟨2, ![1, n]⟩ (![1] : Fin 1 → Fin 2) h1 v) (ix2 p q)
      = v (ix1 q) :=
  (BroadcastInDimAt.row_mat_apply _ h2 p q).trans (BroadcastInDimAt.vec_row_apply v h1 0 q)

/-- The host's column: a vector placed as an [a, 1] column and repeated across b columns, at (p, q). -/
theorem hostCols_apply {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![a, 1]⟩ (![0] : Fin 1 → Fin 2) h1 v) (ix2 p q)
      = v (ix1 p) :=
  (BroadcastInDimAt.col_mat_apply _ h2 p q).trans (BroadcastInDimAt.vec_col_apply v h1 p 0)

/-- The kernel's column: a vector cast to an [a, 1] column and broadcast across b columns, at (p, q). -/
theorem kernelCols_apply {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (q : Fin b) :
    broadcastTo ⟨2, ![a, b]⟩ (shapeCast ⟨2, ![a, 1]⟩ v h1) h2 (ix2 p q) = v (ix1 p) :=
  (ColumnLayout.broadcastTo_a1_ab_apply _ h2 p q).trans (ColumnLayout.shapeCast_a_a1_apply v h1 p 0)

/-- Putting the reduced column coordinate back into a row index: (p) with k inserted on axis 1 is (p, k). -/
theorem lift_row {R n : ℕ} (h : (⟨2, ![R, n]⟩ : Shape).Reduces [1] (⟨1, ![R]⟩ : Shape)) (p : Fin R)
    (k : Fin ((⟨2, ![R, n]⟩ : Shape).size 1)) : h.lift (ix1 p) k = ix2 p (⟨k.val, k.isLt⟩ : Fin n) := by
  funext c; apply Fin.ext
  fin_cases c <;> rfl

/-- The kernel's sum along the rows of an [R, n] matrix, at row p: the sum of that row's n entries. -/
theorem kernelRowSum_apply {R n : ℕ} {φ : FTy} (src : FVec Ideal ⟨2, ![R, n]⟩ φ) (acc : BitVec φ.bits)
    (h : (⟨2, ![R, n]⟩ : Shape).Reduces [1] (⟨1, ![R]⟩ : Shape)) (hφ : FKind.Formats φ) (hacc : acc = FKind.add.neutral φ hφ)
    (p : Fin R) :
    multiReduction .add [1] ⟨1, ![R]⟩ src acc h hφ hacc (ix1 p) = ∑ k : Fin n, src (ix2 p k) := by
  rw [Ideal.multiReduction_add_single src acc h hφ hacc (ix1 p)]
  exact Finset.sum_congr rfl fun k _ => congrArg src (lift_row h p k)

/-- The kernel's maximum along the rows, at row p: the fold of max from the accumulator's value over that row. -/
theorem kernelRowMax_apply {R n : ℕ} {φ : FTy} (src : FVec Ideal ⟨2, ![R, n]⟩ φ) (acc : BitVec φ.bits)
    (h : (⟨2, ![R, n]⟩ : Shape).Reduces [1] (⟨1, ![R]⟩ : Shape)) (hφ : FKind.Formats φ) (hacc : acc = FKind.maximumf.neutral φ hφ)
    (p : Fin R) :
    multiReduction .maximumf [1] ⟨1, ![R]⟩ src acc h hφ hacc (ix1 p)
      = (Finset.univ : Finset (Fin n)).fold max (FloatOps.ofBits φ acc) (fun k => src (ix2 p k)) := by
  rw [Ideal.multiReduction_maximumf_single src acc h hφ hacc (ix1 p)]
  exact congrArg (fun f => (Finset.univ : Finset (Fin n)).fold max (FloatOps.ofBits φ acc) f)
    (funext fun k => congrArg src (lift_row h p k))

/-- The host's sum along the rows, at row p: the initial value plus the sum of that row's entries. -/
theorem hostRowSum_apply {R n : ℕ} (x : (⟨2, ![R, n]⟩ : Shape).Idx → EReal) (init : EReal)
    (h' : (⟨2, ![R, n]⟩ : Shape).ReducesTo [1] (⟨1, ![R]⟩ : Shape)) (h : (⟨2, ![R, n]⟩ : Shape).Reduces [1] (⟨1, ![R]⟩ : Shape))
    (p : Fin R) :
    Ideal.hostReduceAdd h' x init (ix1 p) = init + ∑ k : Fin n, x (ix2 p k) := by
  rw [Ideal.hostReduceAdd_single h' h x init (ix1 p)]
  exact congrArg (init + ·) (Finset.sum_congr rfl fun k _ => congrArg x (lift_row h p k))

/-- The host's maximum along the rows, at row p: the fold of max from the initial value over that row. -/
theorem hostRowMax_apply {R n : ℕ} {φ : FTy} {u : Shape} (x : FVec Ideal ⟨2, ![R, n]⟩ φ) (init : u.Idx → Ideal φ)
    (h' : (⟨2, ![R, n]⟩ : Shape).ReducesTo [1] (⟨1, ![R]⟩ : Shape)) (h : (⟨2, ![R, n]⟩ : Shape).Reduces [1] (⟨1, ![R]⟩ : Shape))
    (hu : 0 < u.numel) (p : Fin R) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single FloatOps.maximumf x init h' h hu (ix1 p)]
  exact congrArg (fun f => (Finset.univ : Finset (Fin n)).fold max (init (Shape.Idx.first hu)) f)
    (funext fun k => congrArg x (lift_row h p k))

end Idealize.ShloMosaic.DenseRows

end
-- ==== Proof.RefDense.lean ====
/-
  The reference's dense maps read at one entry.

  Each whole-array dense map of Layers.lean, read at (node p, column q), is the entry formula of RowMaps.lean of
  row p of its two feature operands, column q of its two weight matrices and entry q of its parameter vectors:
  the host's `dot_general` is the sum over the contracted index, its two-step `broadcast_in_dim` of a parameter
  vector reads entry q, the normalisation is pointwise, and the reference's `(a·wl + bl) + x·wr` is re-associated
  into `a·wl + x·wr + bl`. For the log-softmax the row maximum is the host's `reduce` with a maximum body from -∞
  (then once more `max (-∞) ·`), and the sum of exponentials its `reduce` with an add body from 0.
-/
import proofs.«104926_j31714038513706_1_alg».proof.Proof.Layers
import proofs.«104926_j31714038513706_1_alg».proof.Proof.RowMaps
import proofs.«104926_j31714038513706_1_alg».proof.Proof.LibDenseRows
import proofs.«104926_j31714038513706_1_alg».proof.Proof.LibPlainDot

noncomputable section

namespace Cert.ReferenceIdeal.Layers

open Cert.ReferenceIdeal Cert.ReferenceIdeal.Gen Idealize.ShloMosaic Idealize.ShloMosaic.TcCoe Idealize.ShloMosaic.ValueIdx

/-- A parameter vector repeated down the rows reads its entry of the column. -/
theorem rows128_apply (v : FVec Ideal S128 .f32) (p : Fin 50000) (q : Fin 128) :
    rows128 (F := Ideal) v (ix2 p q) = v (ix1 q) := by
  unfold rows128
  exact DenseRows.hostRows_apply v _ _ p q

/-- Normalisation and clamp, entry by entry. -/
theorem bnRelu_apply (z : FVec Ideal S50000x128 .f32) (g b mn v : FVec Ideal S128 .f32)
    (p : Fin 50000) (q : Fin 128) :
    bnRelu (F := Ideal) z g b mn v (ix2 p q) = Sage.bnRelu (z (ix2 p q)) (g (ix1 q)) (b (ix1 q)) (mn (ix1 q)) (v (ix1 q)) := by
  unfold bnRelu Sage.bnRelu
  show max ((z (ix2 p q) - rows128 (F := Ideal) mn (ix2 p q)) * rows128 (F := Ideal) (bnScale g v) (ix2 p q) + rows128 (F := Ideal) b (ix2 p q))
      (broadcastInDim S50000x128 ![] bcast_S_S50000x128 (constant (F := Ideal) S_ .f32 0x00000000#32) (ix2 p q)) = _
  rw [rows128_apply, rows128_apply, rows128_apply, BroadcastInDimAt.scalar_apply]
  unfold bnScale
  show max ((_ - _) * (g (ix1 q) * Ideal.rsqrt (v (ix1 q) + broadcastInDim S128 ![] bcast_S_S128 (constant (F := Ideal) S_ .f32 0x3727C5AC#32) (ix1 q))) + _) _ = _
  rw [BroadcastInDimAt.scalar_apply]
  rfl

/-- The first hidden layer at (p, q). -/
theorem dense0_apply (a x : FVec Ideal S50000x64 .f32) (wl : FVec Ideal S64x128 .f32)
    (bl : FVec Ideal S128 .f32) (wr : FVec Ideal S64x128 .f32)
    (g b mn v : FVec Ideal S128 .f32) (p : Fin 50000) (q : Fin 128) :
    dense0 (F := Ideal) a x wl bl wr g b mn v (ix2 p q)
      = Sage.hidden (fun k : Fin 64 => a (ix2 p k)) (fun k => x (ix2 p k)) (fun k => wl (ix2 k q)) (fun k => wr (ix2 k q))
          (bl (ix1 q)) (g (ix1 q)) (b (ix1 q)) (mn (ix1 q)) (v (ix1 q)) := by
  unfold dense0 Sage.hidden
  rw [bnRelu_apply]
  refine congrArg (fun z => Sage.bnRelu z (g (ix1 q)) (b (ix1 q)) (mn (ix1 q)) (v (ix1 q))) ?_
  have e1 : Host.dotGeneral (F := Ideal) dot_S50000x64_S64x128_S50000x128_1_0_0_1_n_n none a wl (ix2 p q) = ∑ k : Fin 64, a (ix2 p k) * wl (ix2 k q) :=
    PlainDot.dotGeneral_apply (M := 50000) (K := 64) (N := 128) none a wl p q
  have e2 : Host.dotGeneral (F := Ideal) dot_S50000x64_S64x128_S50000x128_1_0_0_1_n_n none x wr (ix2 p q) = ∑ k : Fin 64, x (ix2 p k) * wr (ix2 k q) :=
    PlainDot.dotGeneral_apply (M := 50000) (K := 64) (N := 128) none x wr p q
  show (Host.dotGeneral (F := Ideal) dot_S50000x64_S64x128_S50000x128_1_0_0_1_n_n none a wl (ix2 p q) + rows128 (F := Ideal) bl (ix2 p q))
      + Host.dotGeneral (F := Ideal) dot_S50000x64_S64x128_S50000x128_1_0_0_1_n_n none x wr (ix2 p q) = _
  rw [e1, e2, rows128_apply]
  exact Sage.affine_eq _ _ _ _ _

/-- The second hidden layer at (p, q). -/
theorem dense1_apply (a h : FVec Ideal S50000x128 .f32) (wl : FVec Ideal S128x128 .f32)
    (bl : FVec Ideal S128 .f32) (wr : FVec Ideal S128x128 .f32)
    (g b mn v : FVec Ideal S128 .f32) (p : Fin 50000) (q : Fin 128) :
    dense1 (F := Ideal) a h wl bl wr g b mn v (ix2 p q)
      = Sage.hidden (fun k : Fin 128 => a (ix2 p k)) (fun k => h (ix2 p k)) (fun k => wl (ix2 k q)) (fun k => wr (ix2 k q))
          (bl (ix1 q)) (g (ix1 q)) (b (ix1 q)) (mn (ix1 q)) (v (ix1 q)) := by
  unfold dense1 Sage.hidden
  rw [bnRelu_apply]
  refine congrArg (fun z => Sage.bnRelu z (g (ix1 q)) (b (ix1 q)) (mn (ix1 q)) (v (ix1 q))) ?_
  have e1 : Host.dotGeneral (F := Ideal) dot_S50000x128_S128x128_S50000x128_1_0_0_1_n_n none a wl (ix2 p q) = ∑ k : Fin 128, a (ix2 p k) * wl (ix2 k q) :=
    PlainDot.dotGeneral_apply (M := 50000) (K := 128) (N := 128) none a wl p q
  have e2 : Host.dotGeneral (F := Ideal) dot_S50000x128_S128x128_S50000x128_1_0_0_1_n_n none h wr (ix2 p q) = ∑ k : Fin 128, h (ix2 p k) * wr (ix2 k q) :=
    PlainDot.dotGeneral_apply (M := 50000) (K := 128) (N := 128) none h wr p q
  show (Host.dotGeneral (F := Ideal) dot_S50000x128_S128x128_S50000x128_1_0_0_1_n_n none a wl (ix2 p q) + rows128 (F := Ideal) bl (ix2 p q))
      + Host.dotGeneral (F := Ideal) dot_S50000x128_S128x128_S50000x128_1_0_0_1_n_n none h wr (ix2 p q) = _
  rw [e1, e2, rows128_apply]
  exact Sage.affine_eq _ _ _ _ _

/-- The logits at (p, q). -/
theorem logits_apply (a h : FVec Ideal S50000x128 .f32) (wl : FVec Ideal S128x10 .f32)
    (bl : FVec Ideal S10 .f32) (wr : FVec Ideal S128x10 .f32) (p : Fin 50000) (q : Fin 10) :
    logits (F := Ideal) a h wl bl wr (ix2 p q)
      = Sage.affine (fun k : Fin 128 => a (ix2 p k)) (fun k => h (ix2 p k)) (fun k => wl (ix2 k q)) (fun k => wr (ix2 k q)) (bl (ix1 q)) := by
  unfold logits
  have e1 : Host.dotGeneral (F := Ideal) dot_S50000x128_S128x10_S50000x10_1_0_0_1_n_n none a wl (ix2 p q) = ∑ k : Fin 128, a (ix2 p k) * wl (ix2 k q) :=
    PlainDot.dotGeneral_apply (M := 50000) (K := 128) (N := 10) none a wl p q
  have e2 : Host.dotGeneral (F := Ideal) dot_S50000x128_S128x10_S50000x10_1_0_0_1_n_n none h wr (ix2 p q) = ∑ k : Fin 128, h (ix2 p k) * wr (ix2 k q) :=
    PlainDot.dotGeneral_apply (M := 50000) (K := 128) (N := 10) none h wr p q
  show (Host.dotGeneral (F := Ideal) dot_S50000x128_S128x10_S50000x10_1_0_0_1_n_n none a wl (ix2 p q)
        + broadcastInDim S50000x10 ![0, 1] bcast_S1x10_S50000x10_0_1 (broadcastInDim S1x10 ![1] bcast_S10_S1x10_1 bl) (ix2 p q))
      + Host.dotGeneral (F := Ideal) dot_S50000x128_S128x10_S50000x10_1_0_0_1_n_n none h wr (ix2 p q) = _
  rw [e1, e2, DenseRows.hostRows_apply]
  exact Sage.affine_eq _ _ _ _ _

/-- The logits less their row maximum, at (p, q). -/
theorem shifted_apply (z : FVec Ideal S50000x10 .f32) (p : Fin 50000) (q : Fin 10) :
    shifted (F := Ideal) z (ix2 p q) = z (ix2 p q) - Sage.rowMax (fun j => z (ix2 p j)) := by
  unfold shifted
  rw [subf_apply, DenseRows.hostCols_apply]
  refine congrArg (z (ix2 p q) - ·) ?_
  rw [maximumf_apply, BroadcastInDimAt.scalar_apply]
  refine (Sage.max_negInf _).trans ?_
  exact (DenseRows.hostRowMax_apply z _ reducesTo_S50000x10_S50000_d1 (by decide) h_S_ p).trans rfl

/-- The log-softmax at (p, q). -/
theorem logSoftmax_apply (z : FVec Ideal S50000x10 .f32) (p : Fin 50000) (q : Fin 10) :
    logSoftmax (F := Ideal) z (ix2 p q) = Sage.logSoftmax (fun j => z (ix2 p j)) q := by
  have hl : ∀ (y : FVec Ideal S50000x1 .f32) (i : S50000x1.Idx), Host.log y i = Ideal.log (y i) := fun _ _ => rfl
  have he : ∀ (y : FVec Ideal S50000x10 .f32) (i : S50000x10.Idx), Host.exp y i = Ideal.exp (y i) := fun _ _ => rfl
  unfold logSoftmax Sage.logSoftmax
  rw [subf_apply, shifted_apply, BroadcastInDimAt.col_mat_apply, hl, BroadcastInDimAt.vec_col_apply]
  refine congrArg (fun s => (z (ix2 p q) - Sage.rowMax fun j => z (ix2 p j)) - Ideal.log s) ?_
  simp only [Host.reduceAdd, Ideal.hostReduceAdd_def]
  refine (DenseRows.hostRowSum_apply _ _ reducesTo_S50000x10_S50000_d1 (by decide) p).trans ?_
  refine (Sage.zero_word_add _).trans (Finset.sum_congr rfl fun j _ => ?_)
  exact (he _ _).trans (congrArg Ideal.exp (shifted_apply z p j))

end Cert.ReferenceIdeal.Layers

end
-- ==== Proof.Region0.lean ====
/-
  Region 0: what the launch leaves in its output array, as one whole-array function of its operand arrays.

  The grid has ten points; point t stages rows 5000·t … 5000·t + 4999 of the two row-tiled operands, the whole of
  every weight matrix and parameter vector, runs the body, and writes its 5000 × 128 tile back to the same rows of
  the output. The written tile is the body's payload of the staged tiles (the generated frame); read at (r, q)
  it is the layer's entry formula (the body module); and the reference's whole-array dense map read at
  (5000·t + r, q) is the same formula of the same entries (the reference module). The ten tiles cover the array,
  so the array ends as that dense map of the operand arrays as the region found them. Stated for any entry
  contents `V`, as the generated per-region half of the frame is.
-/
import proofs.«104926_j31714038513706_1_alg».proof.Proof.PatchedKernelIdealFrame
import proofs.«104926_j31714038513706_1_alg».proof.Proof.KBody0
import proofs.«104926_j31714038513706_1_alg».proof.Proof.RefDense
import Idealize.ShloMosaic.Lib.Pipeline.Value

set_option maxRecDepth 16384

noncomputable section

namespace Cert.KernelIdeal.Region0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the ten grid points: a row-tiled window's block index is the point, every
    other window's is zero. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 1) = 0
    ∧ win0_7.index t (0 : Fin 1) = 0
    ∧ win0_8.index t (0 : Fin 1) = 0
    ∧ win0_9.index t (0 : Fin 2) = t.val
    ∧ win0_9.index t (1 : Fin 2) = 0 :=
  (by decide +kernel : ∀ t : Fin grid0.N, _)

/-- Every tile of the output is some point's. -/
theorem onto0 : ∀ q0 : Fin 10, ∃ t : Fin cfg0.N, win0_9.index t (0 : Fin 2) = q0.val ∧ win0_9.index t (1 : Fin 2) = 0 :=
  (by decide +kernel : ∀ q0 : Fin 10, ∃ t : Fin grid0.N, win0_9.index t (0 : Fin 2) = q0.val ∧ win0_9.index t (1 : Fin 2) = 0)

/-- Window 0's tile at point t is rows 5000·t … of its array. -/
theorem blk0_0 (c : Dev nD) (t : Fin cfg0.N) (r : Fin 5000) (j : Fin 64) (P : Fin 50000) (hP : P.val = t.val * 5000 + r.val) :
    iblk0 V c 0 t (ix2 r j) = V c main_v22 (ix2 P j) := by
  obtain ⟨f0, f1, f2, f3, f4, f5, f6, f7, f8, f9, f10, f11, f12, f13, f14⟩ := idx0 t
  show V c main_v22 (((cfg0.win 0).blk t).view.emb (ix2 r j)) = _
  refine congrArg (V c main_v22) (funext fun a => Fin.ext ?_)
  match a with
  | ⟨0, _⟩ => show win0_0.index t (0 : Fin 2) * 5000 + 1 * r.val = P.val; omega
  | ⟨1, _⟩ => show win0_0.index t (1 : Fin 2) * 64 + 1 * j.val = j.val; omega

/-- Window 1's tile at point t is rows 5000·t … of its array. -/
theorem blk0_1 (c : Dev nD) (t : Fin cfg0.N) (r : Fin 5000) (j : Fin 64) (P : Fin 50000) (hP : P.val = t.val * 5000 + r.val) :
    iblk0 V c 1 t (ix2 r j) = V c main_arg0 (ix2 P j) := by
  obtain ⟨f0, f1, f2, f3, f4, f5, f6, f7, f8, f9, f10, f11, f12, f13, f14⟩ := idx0 t
  show V c main_arg0 (((cfg0.win 1).blk t).view.emb (ix2 r j)) = _
  refine congrArg (V c main_arg0) (funext fun a => Fin.ext ?_)
  match a with
  | ⟨0, _⟩ => show win0_1.index t (0 : Fin 2) * 5000 + 1 * r.val = P.val; omega
  | ⟨1, _⟩ => show win0_1.index t (1 : Fin 2) * 64 + 1 * j.val = j.val; omega

/-- Window 2 is its whole array at every point. -/
theorem blk0_2 (c : Dev nD) (t : Fin cfg0.N) (i : Fin 64) (j : Fin 128) :
    iblk0 V c 2 t (ix2 i j) = V c main_arg2 (ix2 i j) := by
  obtain ⟨f0, f1, f2, f3, f4, f5, f6, f7, f8, f9, f10, f11, f12, f13, f14⟩ := idx0 t
  show V c main_arg2 (((cfg0.win 2).blk t).view.emb (ix2 i j)) = _
  refine congrArg (V c main_arg2) (funext fun a => Fin.ext ?_)
  match a with
  | ⟨0, _⟩ => show win0_2.index t (0 : Fin 2) * 64 + 1 * i.val = i.val; omega
  | ⟨1, _⟩ => show win0_2.index t (1 : Fin 2) * 128 + 1 * j.val = j.val; omega

/-- Window 3 is its whole array at every point. -/
theorem blk0_3 (c : Dev nD) (t : Fin cfg0.N) (j : Fin 128) :
    iblk0 V c 3 t (ix1 j) = V c main_arg3 (ix1 j) := by
  obtain ⟨f0, f1, f2, f3, f4, f5, f6, f7, f8, f9, f10, f11, f12, f13, f14⟩ := idx0 t
  show V c main_arg3 (((cfg0.win 3).blk t).view.emb (ix1 j)) = _
  refine congrArg (V c main_arg3) (funext fun a => Fin.ext ?_)
  match a with
  | ⟨0, _⟩ => show win0_3.index t (0 : Fin 1) * 128 + 1 * j.val = j.val; omega

/-- Window 4 is its whole array at every point. -/
theorem blk0_4 (c : Dev nD) (t : Fin cfg0.N) (i : Fin 64) (j : Fin 128) :
    iblk0 V c 4 t (ix2 i j) = V c main_arg4 (ix2 i j) := by
  obtain ⟨f0, f1, f2, f3, f4, f5, f6, f7, f8, f9, f10, f11, f12, f13, f14⟩ := idx0 t
  show V c main_arg4 (((cfg0.win 4).blk t).view.emb (ix2 i j)) = _
  refine congrArg (V c main_arg4) (funext fun a => Fin.ext ?_)
  match a with
  | ⟨0, _⟩ => show win0_4.index t (0 : Fin 2) * 64 + 1 * i.val = i.val; omega
  | ⟨1, _⟩ => show win0_4.index t (1 : Fin 2) * 128 + 1 * j.val = j.val; omega

/-- Window 5 is its whole array at every point. -/
theorem blk0_5 (c : Dev nD) (t : Fin cfg0.N) (j : Fin 128) :
    iblk0 V c 5 t (ix1 j) = V c main_arg5 (ix1 j) := by
  obtain ⟨f0, f1, f2, f3, f4, f5, f6, f7, f8, f9, f10, f11, f12, f13, f14⟩ := idx0 t
  show V c main_arg5 (((cfg0.win 5).blk t).view.emb (ix1 j)) = _
  refine congrArg (V c main_arg5) (funext fun a => Fin.ext ?_)
  match a with
  | ⟨0, _⟩ => show win0_5.index t (0 : Fin 1) * 128 + 1 * j.val = j.val; omega

/-- Window 6 is its whole array at every point. -/
theorem blk0_6 (c : Dev nD) (t : Fin cfg0.N) (j : Fin 128) :
    iblk0 V c 6 t (ix1 j) = V c main_arg6 (ix1 j) := by
  obtain ⟨f0, f1, f2, f3, f4, f5, f6, f7, f8, f9, f10, f11, f12, f13, f14⟩ := idx0 t
  show V c main_arg6 (((cfg0.win 6).blk t).view.emb (ix1 j)) = _
  refine congrArg (V c main_arg6) (funext fun a => Fin.ext ?_)
  match a with
  | ⟨0, _⟩ => show win0_6.index t (0 : Fin 1) * 128 + 1 * j.val = j.val; omega

/-- Window 7 is its whole array at every point. -/
theorem blk0_7 (c : Dev nD) (t : Fin cfg0.N) (j : Fin 128) :
    iblk0 V c 7 t (ix1 j) = V c main_arg7 (ix1 j) := by
  obtain ⟨f0, f1, f2, f3, f4, f5, f6, f7, f8, f9, f10, f11, f12, f13, f14⟩ := idx0 t
  show V c main_arg7 (((cfg0.win 7).blk t).view.emb (ix1 j)) = _
  refine congrArg (V c main_arg7) (funext fun a => Fin.ext ?_)
  match a with
  | ⟨0, _⟩ => show win0_7.index t (0 : Fin 1) * 128 + 1 * j.val = j.val; omega

/-- Window 8 is its whole array at every point. -/
theorem blk0_8 (c : Dev nD) (t : Fin cfg0.N) (j : Fin 128) :
    iblk0 V c 8 t (ix1 j) = V c main_arg8 (ix1 j) := by
  obtain ⟨f0, f1, f2, f3, f4, f5, f6, f7, f8, f9, f10, f11, f12, f13, f14⟩ := idx0 t
  show V c main_arg8 (((cfg0.win 8).blk t).view.emb (ix1 j)) = _
  refine congrArg (V c main_arg8) (funext fun a => Fin.ext ?_)
  match a with
  | ⟨0, _⟩ => show win0_8.index t (0 : Fin 1) * 128 + 1 * j.val = j.val; omega

/-- What point t writes back is tile t of the dense map of the operand arrays. -/
theorem flushed0 (c : Dev nD) (t : Fin cfg0.N) :
    (dat0 V c).flushed 9 t = ((cfg0.win 9).blk t).view.read (Elt Ideal) (Cert.ReferenceIdeal.Layers.dense0 (F := Ideal) (V c main_v22) (V c main_arg0) (V c main_arg2) (V c main_arg3) (V c main_arg4) (V c main_arg5) (V c main_arg6) (V c main_arg7) (V c main_arg8)) := by
  show (cfg0.win 9).cut (grid0.coords t) ((dat0 V c).after 9 t) = _
  rw [after0_9]
  unfold out0_9
  rw [View.canon_unit_zero hz2]
  simp only [View.ld_unit_zero (S := S5000x64) hz2, View.ld_unit_zero (S := S64x128) hz2, View.ld_unit_zero (S := S128) hz1]
  obtain ⟨f0, f1, f2, f3, f4, f5, f6, f7, f8, f9, f10, f11, f12, f13, f14⟩ := idx0 t
  have ht : t.val < 10 := by have h := t.isLt; have e : cfg0.N = 10 := N_0; omega
  funext j
  obtain ⟨r, q, rfl⟩ : ∃ (r : Fin 5000) (q : Fin 128), j = ix2 r q := ⟨j 0, j 1, eq_ix2 j⟩
  have hemb : ((cfg0.win 9).blk t).view.emb (ix2 r q)
      = ix2 (⟨t.val * 5000 + r.val, by have := r.isLt; omega⟩ : Fin 50000) q := by
    funext a; apply Fin.ext
    match a with
    | ⟨0, _⟩ => show win0_9.index t (0 : Fin 2) * 5000 + 1 * r.val = t.val * 5000 + r.val; omega
    | ⟨1, _⟩ => show win0_9.index t (1 : Fin 2) * 128 + 1 * q.val = q.val; omega
  show k0_pay1 (F := Ideal) (iblk0 V c 0 t) (iblk0 V c 1 t) (iblk0 V c 2 t) (iblk0 V c 4 t) (iblk0 V c 3 t) (iblk0 V c 5 t) (iblk0 V c 6 t) (iblk0 V c 7 t) (iblk0 V c 8 t) (ix2 r q) = (Cert.ReferenceIdeal.Layers.dense0 (F := Ideal) (V c main_v22) (V c main_arg0) (V c main_arg2) (V c main_arg3) (V c main_arg4) (V c main_arg5) (V c main_arg6) (V c main_arg7) (V c main_arg8)) (((cfg0.win 9).blk t).view.emb (ix2 r q))
  rw [hemb]
  refine (Body.pay0_apply (iblk0 V c 0 t) (iblk0 V c 1 t) (iblk0 V c 2 t) (iblk0 V c 4 t) (iblk0 V c 3 t) (iblk0 V c 5 t) (iblk0 V c 6 t) (iblk0 V c 7 t) (iblk0 V c 8 t) r q).trans ?_
  rw [Cert.ReferenceIdeal.Layers.dense0_apply]
  have hP : (⟨t.val * 5000 + r.val, by have := r.isLt; omega⟩ : Fin 50000).val = t.val * 5000 + r.val := rfl
  refine congr (congr (congr (congr (congr (congr (congr (congr (congrArg Sage.hidden
    (funext fun i => blk0_0 V c t r i _ hP)) (funext fun i => blk0_1 V c t r i _ hP))
    (funext fun i => blk0_2 V c t i q)) (funext fun i => blk0_4 V c t i q))
    (blk0_3 V c t q)) (blk0_5 V c t q)) (blk0_6 V c t q)) (blk0_7 V c t q)) (blk0_8 V c t q)

/-- An index of the array is in point t's tile iff each coordinate is in the tile's range. -/
theorem mem_blk0 (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v23).slice (win0_9.rect t)).set ↔ _
  rw [View.set_slice_whole, Rect.mem_set_unit]
  exact Iff.rfl

/-- The ten tiles cover the output array: row n is in the tile of point n / 5000. -/
theorem cover0 (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, q0, q1⟩ := onto0 ⟨(i 0).val / 5000, by omega⟩
  have q0' : win0_9.index t (0 : Fin 2) = (i 0).val / 5000 := q0
  refine ⟨t, flush0_9 t, ?_⟩
  rw [mem_blk0]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The output array after the launch: the dense map of the operand arrays as the region found them. -/
theorem value (c : Dev nD) : (dat0 V c).arrAt 9 cfg0.N = (Cert.ReferenceIdeal.Layers.dense0 (F := Ideal) (V c main_v22) (V c main_arg0) (V c main_arg2) (V c main_arg3) (V c main_arg4) (V c main_arg5) (V c main_arg6) (V c main_arg7) (V c main_arg8)) :=
  (dat0 V c).arrAt_eq_of_cover 9 _ (fun t _ => flushed0 V c t) (cover0)

end Cert.KernelIdeal.Region0

end
-- ==== Proof.KBody1.lean ====
/-
  The kernel body of hidden layer 1, read at one entry.

  The body computes, on a tile of 5000 rows, two matrix products into zero accumulators (its operands cast to
  bfloat16, which changes nothing at the extended reals), adds them and the bias row, normalises with the four
  parameter rows and clamps at zero. Read at (row r of the tile, column q) this is the entry formula `Sage.hidden`
  of row r of the two tile operands, column q of the two weight matrices and entry q of the parameter vectors:
  a product into a zero accumulator is the sum over the contracted index, and a vector cast to one row and
  broadcast down the rows reads its entry of the column.
-/
import proofs.«104926_j31714038513706_1_alg».proof.Proof.Gen.KernelIdeal.Skeleton
import proofs.«104926_j31714038513706_1_alg».proof.Proof.RowMaps
import proofs.«104926_j31714038513706_1_alg».proof.Proof.LibPlainDot
import proofs.«104926_j31714038513706_1_alg».proof.Proof.LibMatrixLayout
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.TcCoe Idealize.ShloMosaic.ValueIdx

/-- Hidden layer 1's stored tile at (r, q). -/
theorem pay1_apply (a x : Vec Ideal S5000x128 .f32) (wl wr : Vec Ideal S128x128 .f32) (bl g b mn v : Vec Ideal S128 .f32)
    (r : Fin 5000) (q : Fin 128) :
    k1_pay1 (F := Ideal) a x wl wr bl g b mn v (ix2 r q)
      = Sage.hidden (fun k : Fin 128 => a (ix2 r k)) (fun k => x (ix2 r k)) (fun k => wl (ix2 k q)) (fun k => wr (ix2 k q))
          (bl (ix1 q)) (g (ix1 q)) (b (ix1 q)) (mn (ix1 q)) (v (ix1 q)) := by
  have e1 : ∀ (l : FVec Ideal S5000x128 .bf16) (w : FVec Ideal S128x128 .bf16),
      matmul dot_S5000x128_S128x128_S5000x128_1_0_0_1_n_n none l w (constant S5000x128 .f32 0x00000000#32) (ix2 r q)
        = ∑ k : Fin 128, l (ix2 r k) * w (ix2 k q) :=
    fun l w => PlainDot.matmul_zero_apply (M := 5000) (K := 128) (N := 128) none l w r q
  have eb : ∀ u : Vec Ideal S128 .f32,
      broadcastTo S5000x128 (shapeCast S1x128 u shapeCasts_S128_S1x128) broadcasts_S1x128_S5000x128 (ix2 r q) = u (ix1 q) :=
    fun u => MatrixLayout.row_broadcast_apply u _ _ r q
  have er : ∀ u : Vec Ideal S128 .f32, shapeCast S1x128 u shapeCasts_S128_S1x128 (ix2 (0 : Fin 1) q) = u (ix1 q) :=
    fun u => shapeCast_a_1a_apply u _ 0 q
  have es : ∀ w : FVec Ideal S1x128 .f32, broadcastTo S5000x128 w broadcasts_S1x128_S5000x128 (ix2 r q) = w (ix2 (0 : Fin 1) q) :=
    fun w => broadcastTo_1b_ab_apply w _ r q
  have hr : ∀ (y : FVec Ideal S1x128 .f32) (i : S1x128.Idx), rsqrt y i = Ideal.rsqrt (y i) := fun _ _ => rfl
  unfold k1_pay1 Sage.hidden Sage.bnRelu Sage.affine
  simp only [shapeCast_self, maximumf_apply, addf_apply, subf_apply, mulf_apply, broadcast_apply, truncf_apply,
    e1, eb, es, hr, er]
  rfl

end Cert.KernelIdeal.Body

end
-- ==== Proof.Region1.lean ====
/-
  Region 1: what the launch leaves in its output array, as one whole-array function of its operand arrays.

  The grid has ten points; point t stages rows 5000·t … 5000·t + 4999 of the two row-tiled operands, the whole of
  every weight matrix and parameter vector, runs the body, and writes its 5000 × 128 tile back to the same rows of
  the output. The written tile is the body's payload of the staged tiles (the generated frame); read at (r, q)
  it is the layer's entry formula (the body module); and the reference's whole-array dense map read at
  (5000·t + r, q) is the same formula of the same entries (the reference module). The ten tiles cover the array,
  so the array ends as that dense map of the operand arrays as the region found them. Stated for any entry
  contents `V`, as the generated per-region half of the frame is.
-/
import proofs.«104926_j31714038513706_1_alg».proof.Proof.PatchedKernelIdealFrame
import proofs.«104926_j31714038513706_1_alg».proof.Proof.KBody1
import proofs.«104926_j31714038513706_1_alg».proof.Proof.RefDense
import Idealize.ShloMosaic.Lib.Pipeline.Value

set_option maxRecDepth 16384

noncomputable section

namespace Cert.KernelIdeal.Region1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the ten grid points: a row-tiled window's block index is the point, every
    other window's is zero. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (0 : Fin 1) = 0
    ∧ win1_7.index t (0 : Fin 1) = 0
    ∧ win1_8.index t (0 : Fin 1) = 0
    ∧ win1_9.index t (0 : Fin 2) = t.val
    ∧ win1_9.index t (1 : Fin 2) = 0 :=
  (by decide +kernel : ∀ t : Fin grid1.N, _)

/-- Every tile of the output is some point's. -/
theorem onto1 : ∀ q0 : Fin 10, ∃ t : Fin cfg1.N, win1_9.index t (0 : Fin 2) = q0.val ∧ win1_9.index t (1 : Fin 2) = 0 :=
  (by decide +kernel : ∀ q0 : Fin 10, ∃ t : Fin grid1.N, win1_9.index t (0 : Fin 2) = q0.val ∧ win1_9.index t (1 : Fin 2) = 0)

/-- Window 0's tile at point t is rows 5000·t … of its array. -/
theorem blk1_0 (c : Dev nD) (t : Fin cfg1.N) (r : Fin 5000) (j : Fin 128) (P : Fin 50000) (hP : P.val = t.val * 5000 + r.val) :
    iblk1 V c 0 t (ix2 r j) = V c main_v35 (ix2 P j) := by
  obtain ⟨f0, f1, f2, f3, f4, f5, f6, f7, f8, f9, f10, f11, f12, f13, f14⟩ := idx1 t
  show V c main_v35 (((cfg1.win 0).blk t).view.emb (ix2 r j)) = _
  refine congrArg (V c main_v35) (funext fun a => Fin.ext ?_)
  match a with
  | ⟨0, _⟩ => show win1_0.index t (0 : Fin 2) * 5000 + 1 * r.val = P.val; omega
  | ⟨1, _⟩ => show win1_0.index t (1 : Fin 2) * 128 + 1 * j.val = j.val; omega

/-- Window 1's tile at point t is rows 5000·t … of its array. -/
theorem blk1_1 (c : Dev nD) (t : Fin cfg1.N) (r : Fin 5000) (j : Fin 128) (P : Fin 50000) (hP : P.val = t.val * 5000 + r.val) :
    iblk1 V c 1 t (ix2 r j) = V c main_v23 (ix2 P j) := by
  obtain ⟨f0, f1, f2, f3, f4, f5, f6, f7, f8, f9, f10, f11, f12, f13, f14⟩ := idx1 t
  show V c main_v23 (((cfg1.win 1).blk t).view.emb (ix2 r j)) = _
  refine congrArg (V c main_v23) (funext fun a => Fin.ext ?_)
  match a with
  | ⟨0, _⟩ => show win1_1.index t (0 : Fin 2) * 5000 + 1 * r.val = P.val; omega
  | ⟨1, _⟩ => show win1_1.index t (1 : Fin 2) * 128 + 1 * j.val = j.val; omega

/-- Window 2 is its whole array at every point. -/
theorem blk1_2 (c : Dev nD) (t : Fin cfg1.N) (i : Fin 128) (j : Fin 128) :
    iblk1 V c 2 t (ix2 i j) = V c main_arg9 (ix2 i j) := by
  obtain ⟨f0, f1, f2, f3, f4, f5, f6, f7, f8, f9, f10, f11, f12, f13, f14⟩ := idx1 t
  show V c main_arg9 (((cfg1.win 2).blk t).view.emb (ix2 i j)) = _
  refine congrArg (V c main_arg9) (funext fun a => Fin.ext ?_)
  match a with
  | ⟨0, _⟩ => show win1_2.index t (0 : Fin 2) * 128 + 1 * i.val = i.val; omega
  | ⟨1, _⟩ => show win1_2.index t (1 : Fin 2) * 128 + 1 * j.val = j.val; omega

/-- Window 3 is its whole array at every point. -/
theorem blk1_3 (c : Dev nD) (t : Fin cfg1.N) (j : Fin 128) :
    iblk1 V c 3 t (ix1 j) = V c main_arg10 (ix1 j) := by
  obtain ⟨f0, f1, f2, f3, f4, f5, f6, f7, f8, f9, f10, f11, f12, f13, f14⟩ := idx1 t
  show V c main_arg10 (((cfg1.win 3).blk t).view.emb (ix1 j)) = _
  refine congrArg (V c main_arg10) (funext fun a => Fin.ext ?_)
  match a with
  | ⟨0, _⟩ => show win1_3.index t (0 : Fin 1) * 128 + 1 * j.val = j.val; omega

/-- Window 4 is its whole array at every point. -/
theorem blk1_4 (c : Dev nD) (t : Fin cfg1.N) (i : Fin 128) (j : Fin 128) :
    iblk1 V c 4 t (ix2 i j) = V c main_arg11 (ix2 i j) := by
  obtain ⟨f0, f1, f2, f3, f4, f5, f6, f7, f8, f9, f10, f11, f12, f13, f14⟩ := idx1 t
  show V c main_arg11 (((cfg1.win 4).blk t).view.emb (ix2 i j)) = _
  refine congrArg (V c main_arg11) (funext fun a => Fin.ext ?_)
  match a with
  | ⟨0, _⟩ => show win1_4.index t (0 : Fin 2) * 128 + 1 * i.val = i.val; omega
  | ⟨1, _⟩ => show win1_4.index t (1 : Fin 2) * 128 + 1 * j.val = j.val; omega

/-- Window 5 is its whole array at every point. -/
theorem blk1_5 (c : Dev nD) (t : Fin cfg1.N) (j : Fin 128) :
    iblk1 V c 5 t (ix1 j) = V c main_arg12 (ix1 j) := by
  obtain ⟨f0, f1, f2, f3, f4, f5, f6, f7, f8, f9, f10, f11, f12, f13, f14⟩ := idx1 t
  show V c main_arg12 (((cfg1.win 5).blk t).view.emb (ix1 j)) = _
  refine congrArg (V c main_arg12) (funext fun a => Fin.ext ?_)
  match a with
  | ⟨0, _⟩ => show win1_5.index t (0 : Fin 1) * 128 + 1 * j.val = j.val; omega

/-- Window 6 is its whole array at every point. -/
theorem blk1_6 (c : Dev nD) (t : Fin cfg1.N) (j : Fin 128) :
    iblk1 V c 6 t (ix1 j) = V c main_arg13 (ix1 j) := by
  obtain ⟨f0, f1, f2, f3, f4, f5, f6, f7, f8, f9, f10, f11, f12, f13, f14⟩ := idx1 t
  show V c main_arg13 (((cfg1.win 6).blk t).view.emb (ix1 j)) = _
  refine congrArg (V c main_arg13) (funext fun a => Fin.ext ?_)
  match a with
  | ⟨0, _⟩ => show win1_6.index t (0 : Fin 1) * 128 + 1 * j.val = j.val; omega

/-- Window 7 is its whole array at every point. -/
theorem blk1_7 (c : Dev nD) (t : Fin cfg1.N) (j : Fin 128) :
    iblk1 V c 7 t (ix1 j) = V c main_arg14 (ix1 j) := by
  obtain ⟨f0, f1, f2, f3, f4, f5, f6, f7, f8, f9, f10, f11, f12, f13, f14⟩ := idx1 t
  show V c main_arg14 (((cfg1.win 7).blk t).view.emb (ix1 j)) = _
  refine congrArg (V c main_arg14) (funext fun a => Fin.ext ?_)
  match a with
  | ⟨0, _⟩ => show win1_7.index t (0 : Fin 1) * 128 + 1 * j.val = j.val; omega

/-- Window 8 is its whole array at every point. -/
theorem blk1_8 (c : Dev nD) (t : Fin cfg1.N) (j : Fin 128) :
    iblk1 V c 8 t (ix1 j) = V c main_arg15 (ix1 j) := by
  obtain ⟨f0, f1, f2, f3, f4, f5, f6, f7, f8, f9, f10, f11, f12, f13, f14⟩ := idx1 t
  show V c main_arg15 (((cfg1.win 8).blk t).view.emb (ix1 j)) = _
  refine congrArg (V c main_arg15) (funext fun a => Fin.ext ?_)
  match a with
  | ⟨0, _⟩ => show win1_8.index t (0 : Fin 1) * 128 + 1 * j.val = j.val; omega

/-- What point t writes back is tile t of the dense map of the operand arrays. -/
theorem flushed1 (c : Dev nD) (t : Fin cfg1.N) :
    (dat1 V c).flushed 9 t = ((cfg1.win 9).blk t).view.read (Elt Ideal) (Cert.ReferenceIdeal.Layers.dense1 (F := Ideal) (V c main_v35) (V c main_v23) (V c main_arg9) (V c main_arg10) (V c main_arg11) (V c main_arg12) (V c main_arg13) (V c main_arg14) (V c main_arg15)) := by
  show (cfg1.win 9).cut (grid1.coords t) ((dat1 V c).after 9 t) = _
  rw [after1_9]
  unfold out1_9
  rw [View.canon_unit_zero hz2]
  simp only [View.ld_unit_zero (S := S5000x128) hz2, View.ld_unit_zero (S := S128x128) hz2, View.ld_unit_zero (S := S128) hz1]
  obtain ⟨f0, f1, f2, f3, f4, f5, f6, f7, f8, f9, f10, f11, f12, f13, f14⟩ := idx1 t
  have ht : t.val < 10 := by have h := t.isLt; have e : cfg1.N = 10 := N_1; omega
  funext j
  obtain ⟨r, q, rfl⟩ : ∃ (r : Fin 5000) (q : Fin 128), j = ix2 r q := ⟨j 0, j 1, eq_ix2 j⟩
  have hemb : ((cfg1.win 9).blk t).view.emb (ix2 r q)
      = ix2 (⟨t.val * 5000 + r.val, by have := r.isLt; omega⟩ : Fin 50000) q := by
    funext a; apply Fin.ext
    match a with
    | ⟨0, _⟩ => show win1_9.index t (0 : Fin 2) * 5000 + 1 * r.val = t.val * 5000 + r.val; omega
    | ⟨1, _⟩ => show win1_9.index t (1 : Fin 2) * 128 + 1 * q.val = q.val; omega
  show k1_pay1 (F := Ideal) (iblk1 V c 0 t) (iblk1 V c 1 t) (iblk1 V c 2 t) (iblk1 V c 4 t) (iblk1 V c 3 t) (iblk1 V c 5 t) (iblk1 V c 6 t) (iblk1 V c 7 t) (iblk1 V c 8 t) (ix2 r q) = (Cert.ReferenceIdeal.Layers.dense1 (F := Ideal) (V c main_v35) (V c main_v23) (V c main_arg9) (V c main_arg10) (V c main_arg11) (V c main_arg12) (V c main_arg13) (V c main_arg14) (V c main_arg15)) (((cfg1.win 9).blk t).view.emb (ix2 r q))
  rw [hemb]
  refine (Body.pay1_apply (iblk1 V c 0 t) (iblk1 V c 1 t) (iblk1 V c 2 t) (iblk1 V c 4 t) (iblk1 V c 3 t) (iblk1 V c 5 t) (iblk1 V c 6 t) (iblk1 V c 7 t) (iblk1 V c 8 t) r q).trans ?_
  rw [Cert.ReferenceIdeal.Layers.dense1_apply]
  have hP : (⟨t.val * 5000 + r.val, by have := r.isLt; omega⟩ : Fin 50000).val = t.val * 5000 + r.val := rfl
  refine congr (congr (congr (congr (congr (congr (congr (congr (congrArg Sage.hidden
    (funext fun i => blk1_0 V c t r i _ hP)) (funext fun i => blk1_1 V c t r i _ hP))
    (funext fun i => blk1_2 V c t i q)) (funext fun i => blk1_4 V c t i q))
    (blk1_3 V c t q)) (blk1_5 V c t q)) (blk1_6 V c t q)) (blk1_7 V c t q)) (blk1_8 V c t q)

/-- An index of the array is in point t's tile iff each coordinate is in the tile's range. -/
theorem mem_blk1 (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v36).slice (win1_9.rect t)).set ↔ _
  rw [View.set_slice_whole, Rect.mem_set_unit]
  exact Iff.rfl

/-- The ten tiles cover the output array: row n is in the tile of point n / 5000. -/
theorem cover1 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, q0, q1⟩ := onto1 ⟨(i 0).val / 5000, by omega⟩
  have q0' : win1_9.index t (0 : Fin 2) = (i 0).val / 5000 := q0
  refine ⟨t, flush1_9 t, ?_⟩
  rw [mem_blk1]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- The output array after the launch: the dense map of the operand arrays as the region found them. -/
theorem value (c : Dev nD) : (dat1 V c).arrAt 9 cfg1.N = (Cert.ReferenceIdeal.Layers.dense1 (F := Ideal) (V c main_v35) (V c main_v23) (V c main_arg9) (V c main_arg10) (V c main_arg11) (V c main_arg12) (V c main_arg13) (V c main_arg14) (V c main_arg15)) :=
  (dat1 V c).arrAt_eq_of_cover 9 _ (fun t _ => flushed1 V c t) (cover1)

end Cert.KernelIdeal.Region1

end
-- ==== Proof.KBody2.lean ====
/-
  The kernel body of the output layer, read at one entry.

  On a tile of 5000 rows the body forms the ten logits of every row — two matrix products into zero accumulators
  (operands cast to bfloat16, the identity at the extended reals) plus the bias row —, subtracts each row's maximum
  (a lane reduction from -∞, laid back as a column), and subtracts the logarithm of the row's sum of exponentials
  (a lane sum, laid back as a column). Read at (row r of the tile, column q) this is `Sage.logSoftmax` of the row's
  logits, each logit the entry formula `Sage.affine`.
-/
import proofs.«104926_j31714038513706_1_alg».proof.Proof.Gen.KernelIdeal.Skeleton
import proofs.«104926_j31714038513706_1_alg».proof.Proof.RowMaps
import proofs.«104926_j31714038513706_1_alg».proof.Proof.LibPlainDot
import proofs.«104926_j31714038513706_1_alg».proof.Proof.LibMatrixLayout
import proofs.«104926_j31714038513706_1_alg».proof.Proof.LibDenseRows
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.TcCoe Idealize.ShloMosaic.ValueIdx

/-- A tile of logits less each row's maximum, as the body forms it. -/
def shiftedTile (z : FVec Ideal S5000x10 .f32) : FVec Ideal S5000x10 .f32 :=
  subf z (broadcastTo S5000x10 (shapeCast S5000x1
    (multiReduction .maximumf [1] S5000 z 0xFF800000#32 reduces_S5000x10_S5000 (.inl rfl) rfl) shapeCasts_S5000_S5000x1)
    broadcasts_S5000x1_S5000x10)

/-- At (r, j): the logit less the maximum of row r. -/
theorem shiftedTile_apply (z : FVec Ideal S5000x10 .f32) (r : Fin 5000) (j : Fin 10) :
    shiftedTile z (ix2 r j) = z (ix2 r j) - Sage.rowMax (fun i => z (ix2 r i)) := by
  unfold shiftedTile
  rw [subf_apply, DenseRows.kernelCols_apply]
  refine congrArg (z (ix2 r j) - ·) ?_
  exact (DenseRows.kernelRowMax_apply z _ reduces_S5000x10_S5000 _ _ r).trans rfl

/-- The body's tail from the logits on: the log-softmax of row r at column q. -/
theorem softmaxTail (z : FVec Ideal S5000x10 .f32) (r : Fin 5000) (q : Fin 10) :
    subf (shiftedTile z) (broadcastTo S5000x10 (log (shapeCast S5000x1
        (multiReduction .add [1] S5000 (exp (shiftedTile z)) 0x00000000#32 reduces_S5000x10_S5000 (.inl rfl) rfl) shapeCasts_S5000_S5000x1))
        broadcasts_S5000x1_S5000x10) (ix2 r q)
      = Sage.logSoftmax (fun j => z (ix2 r j)) q := by
  have hl : ∀ (y : FVec Ideal S5000x1 .f32) (i : S5000x1.Idx), log y i = Ideal.log (y i) := fun _ _ => rfl
  have he : ∀ (y : FVec Ideal S5000x10 .f32) (i : S5000x10.Idx), exp y i = Ideal.exp (y i) := fun _ _ => rfl
  rw [subf_apply, shiftedTile_apply, ColumnLayout.broadcastTo_a1_ab_apply, hl, ColumnLayout.shapeCast_a_a1_apply]
  unfold Sage.logSoftmax
  refine congrArg (fun s => (z (ix2 r q) - Sage.rowMax fun j => z (ix2 r j)) - Ideal.log s) ?_
  refine (DenseRows.kernelRowSum_apply (exp (shiftedTile z)) _ reduces_S5000x10_S5000 _ _ r).trans ?_
  exact Finset.sum_congr rfl fun j _ => (he _ _).trans (congrArg Ideal.exp (shiftedTile_apply z r j))

/-- The output layer's stored tile at (r, q). -/
theorem pay2_apply (a h : Vec Ideal S5000x128 .f32) (wl wr : Vec Ideal S128x10 .f32) (bl : Vec Ideal S10 .f32)
    (r : Fin 5000) (q : Fin 10) :
    k2_pay1 (F := Ideal) a h wl wr bl (ix2 r q)
      = Sage.logSoftmax (fun j : Fin 10 => Sage.affine (fun k : Fin 128 => a (ix2 r k)) (fun k => h (ix2 r k))
          (fun k => wl (ix2 k j)) (fun k => wr (ix2 k j)) (bl (ix1 j))) q := by
  have e1 : ∀ (l : FVec Ideal S5000x128 .bf16) (w : FVec Ideal S128x10 .bf16) (j : Fin 10),
      matmul dot_S5000x128_S128x10_S5000x10_1_0_0_1_n_n none l w (constant S5000x10 .f32 0x00000000#32) (ix2 r j)
        = ∑ k : Fin 128, l (ix2 r k) * w (ix2 k j) :=
    fun l w j => PlainDot.matmul_zero_apply (M := 5000) (K := 128) (N := 10) none l w r j
  have eb : ∀ j : Fin 10,
      broadcastTo S5000x10 (shapeCast S1x10 bl shapeCasts_S10_S1x10) broadcasts_S1x10_S5000x10 (ix2 r j) = bl (ix1 j) :=
    fun j => MatrixLayout.row_broadcast_apply bl _ _ r j
  unfold k2_pay1
  simp only [shapeCast_self]
  refine (softmaxTail _ r q).trans ?_
  refine congrArg (fun z => Sage.logSoftmax z q) (funext fun j => ?_)
  unfold Sage.affine
  simp only [addf_apply, truncf_apply, e1, eb]

end Cert.KernelIdeal.Body

end
-- ==== Proof.Region2.lean ====
/-
  Region 2: what the launch leaves in its output array, as one whole-array function of its operand arrays.

  The grid has ten points; point t stages rows 5000·t … 5000·t + 4999 of the two row-tiled operands, the whole of
  every weight matrix and parameter vector, runs the body, and writes its 5000 × 10 tile back to the same rows of
  the output. The written tile is the body's payload of the staged tiles (the generated frame); read at (r, q)
  it is the layer's entry formula (the body module); and the reference's whole-array dense map read at
  (5000·t + r, q) is the same formula of the same entries (the reference module). The ten tiles cover the array,
  so the array ends as that dense map of the operand arrays as the region found them. Stated for any entry
  contents `V`, as the generated per-region half of the frame is.
-/
import proofs.«104926_j31714038513706_1_alg».proof.Proof.PatchedKernelIdealFrame
import proofs.«104926_j31714038513706_1_alg».proof.Proof.KBody2
import proofs.«104926_j31714038513706_1_alg».proof.Proof.RefDense
import Idealize.ShloMosaic.Lib.Pipeline.Value

set_option maxRecDepth 16384

noncomputable section

namespace Cert.KernelIdeal.Region2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the ten grid points: a row-tiled window's block index is the point, every
    other window's is zero. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Every tile of the output is some point's. -/
theorem onto2 : ∀ q0 : Fin 10, ∃ t : Fin cfg2.N, win2_5.index t (0 : Fin 2) = q0.val ∧ win2_5.index t (1 : Fin 2) = 0 :=
  (by decide +kernel : ∀ q0 : Fin 10, ∃ t : Fin grid2.N, win2_5.index t (0 : Fin 2) = q0.val ∧ win2_5.index t (1 : Fin 2) = 0)

/-- Window 0's tile at point t is rows 5000·t … of its array. -/
theorem blk2_0 (c : Dev nD) (t : Fin cfg2.N) (r : Fin 5000) (j : Fin 128) (P : Fin 50000) (hP : P.val = t.val * 5000 + r.val) :
    iblk2 V c 0 t (ix2 r j) = V c main_v48 (ix2 P j) := by
  obtain ⟨f0, f1, f2, f3, f4, f5, f6, f7, f8, f9, f10⟩ := idx2 t
  show V c main_v48 (((cfg2.win 0).blk t).view.emb (ix2 r j)) = _
  refine congrArg (V c main_v48) (funext fun a => Fin.ext ?_)
  match a with
  | ⟨0, _⟩ => show win2_0.index t (0 : Fin 2) * 5000 + 1 * r.val = P.val; omega
  | ⟨1, _⟩ => show win2_0.index t (1 : Fin 2) * 128 + 1 * j.val = j.val; omega

/-- Window 1's tile at point t is rows 5000·t … of its array. -/
theorem blk2_1 (c : Dev nD) (t : Fin cfg2.N) (r : Fin 5000) (j : Fin 128) (P : Fin 50000) (hP : P.val = t.val * 5000 + r.val) :
    iblk2 V c 1 t (ix2 r j) = V c main_v36 (ix2 P j) := by
  obtain ⟨f0, f1, f2, f3, f4, f5, f6, f7, f8, f9, f10⟩ := idx2 t
  show V c main_v36 (((cfg2.win 1).blk t).view.emb (ix2 r j)) = _
  refine congrArg (V c main_v36) (funext fun a => Fin.ext ?_)
  match a with
  | ⟨0, _⟩ => show win2_1.index t (0 : Fin 2) * 5000 + 1 * r.val = P.val; omega
  | ⟨1, _⟩ => show win2_1.index t (1 : Fin 2) * 128 + 1 * j.val = j.val; omega

/-- Window 2 is its whole array at every point. -/
theorem blk2_2 (c : Dev nD) (t : Fin cfg2.N) (i : Fin 128) (j : Fin 10) :
    iblk2 V c 2 t (ix2 i j) = V c main_arg16 (ix2 i j) := by
  obtain ⟨f0, f1, f2, f3, f4, f5, f6, f7, f8, f9, f10⟩ := idx2 t
  show V c main_arg16 (((cfg2.win 2).blk t).view.emb (ix2 i j)) = _
  refine congrArg (V c main_arg16) (funext fun a => Fin.ext ?_)
  match a with
  | ⟨0, _⟩ => show win2_2.index t (0 : Fin 2) * 128 + 1 * i.val = i.val; omega
  | ⟨1, _⟩ => show win2_2.index t (1 : Fin 2) * 10 + 1 * j.val = j.val; omega

/-- Window 3 is its whole array at every point. -/
theorem blk2_3 (c : Dev nD) (t : Fin cfg2.N) (j : Fin 10) :
    iblk2 V c 3 t (ix1 j) = V c main_arg17 (ix1 j) := by
  obtain ⟨f0, f1, f2, f3, f4, f5, f6, f7, f8, f9, f10⟩ := idx2 t
  show V c main_arg17 (((cfg2.win 3).blk t).view.emb (ix1 j)) = _
  refine congrArg (V c main_arg17) (funext fun a => Fin.ext ?_)
  match a with
  | ⟨0, _⟩ => show win2_3.index t (0 : Fin 1) * 10 + 1 * j.val = j.val; omega

/-- Window 4 is its whole array at every point. -/
theorem blk2_4 (c : Dev nD) (t : Fin cfg2.N) (i : Fin 128) (j : Fin 10) :
    iblk2 V c 4 t (ix2 i j) = V c main_arg18 (ix2 i j) := by
  obtain ⟨f0, f1, f2, f3, f4, f5, f6, f7, f8, f9, f10⟩ := idx2 t
  show V c main_arg18 (((cfg2.win 4).blk t).view.emb (ix2 i j)) = _
  refine congrArg (V c main_arg18) (funext fun a => Fin.ext ?_)
  match a with
  | ⟨0, _⟩ => show win2_4.index t (0 : Fin 2) * 128 + 1 * i.val = i.val; omega
  | ⟨1, _⟩ => show win2_4.index t (1 : Fin 2) * 10 + 1 * j.val = j.val; omega

/-- What point t writes back is tile t of the dense map of the operand arrays. -/
theorem flushed2 (c : Dev nD) (t : Fin cfg2.N) :
    (dat2 V c).flushed 5 t = ((cfg2.win 5).blk t).view.read (Elt Ideal) (Cert.ReferenceIdeal.Layers.logSoftmax (F := Ideal) (Cert.ReferenceIdeal.Layers.logits (F := Ideal) (V c main_v48) (V c main_v36) (V c main_arg16) (V c main_arg17) (V c main_arg18))) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x10) hz2, View.ld_unit_zero (S := S10) hz1]
  obtain ⟨f0, f1, f2, f3, f4, f5, f6, f7, f8, f9, f10⟩ := idx2 t
  have ht : t.val < 10 := by have h := t.isLt; have e : cfg2.N = 10 := N_2; omega
  funext j
  obtain ⟨r, q, rfl⟩ : ∃ (r : Fin 5000) (q : Fin 10), j = ix2 r q := ⟨j 0, j 1, eq_ix2 j⟩
  have hemb : ((cfg2.win 5).blk t).view.emb (ix2 r q)
      = ix2 (⟨t.val * 5000 + r.val, by have := r.isLt; omega⟩ : Fin 50000) q := by
    funext a; apply Fin.ext
    match a with
    | ⟨0, _⟩ => show win2_5.index t (0 : Fin 2) * 5000 + 1 * r.val = t.val * 5000 + r.val; omega
    | ⟨1, _⟩ => show win2_5.index t (1 : Fin 2) * 10 + 1 * q.val = q.val; omega
  show k2_pay1 (F := Ideal) (iblk2 V c 0 t) (iblk2 V c 1 t) (iblk2 V c 2 t) (iblk2 V c 4 t) (iblk2 V c 3 t) (ix2 r q) = (Cert.ReferenceIdeal.Layers.logSoftmax (F := Ideal) (Cert.ReferenceIdeal.Layers.logits (F := Ideal) (V c main_v48) (V c main_v36) (V c main_arg16) (V c main_arg17) (V c main_arg18))) (((cfg2.win 5).blk t).view.emb (ix2 r q))
  rw [hemb]
  refine (Body.pay2_apply (iblk2 V c 0 t) (iblk2 V c 1 t) (iblk2 V c 2 t) (iblk2 V c 4 t) (iblk2 V c 3 t) r q).trans ?_
  rw [Cert.ReferenceIdeal.Layers.logSoftmax_apply]
  have hP : (⟨t.val * 5000 + r.val, by have := r.isLt; omega⟩ : Fin 50000).val = t.val * 5000 + r.val := rfl
  refine congrArg (fun z => Sage.logSoftmax z q) (funext fun j => ?_)
  rw [Cert.ReferenceIdeal.Layers.logits_apply]
  exact congr (congr (congr (congr (congrArg Sage.affine
    (funext fun i => blk2_0 V c t r i _ hP)) (funext fun i => blk2_1 V c t r i _ hP))
    (funext fun i => blk2_2 V c t i j)) (funext fun i => blk2_4 V c t i j)) (blk2_3 V c t j)

/-- An index of the array is in point t's tile iff each coordinate is in the tile's range. -/
theorem mem_blk2 (t : Fin cfg2.N) (i : S50000x10.Idx) :
    i ∈ ((cfg2.win 5).blk t).view.set ↔ ∀ a : Fin 2, win2_5.index t a * S5000x10.size a ≤ (i a).val ∧ (i a).val < win2_5.index t a * S5000x10.size a + S5000x10.size a := by
  show i ∈ ((View.whole main_v49).slice (win2_5.rect t)).set ↔ _
  rw [View.set_slice_whole, Rect.mem_set_unit]
  exact Iff.rfl

/-- The ten tiles cover the output array: row n is in the tile of point n / 5000. -/
theorem cover2 (i : S50000x10.Idx) :
    ∃ t : Fin cfg2.N, (cfg2.win 5).flush t = true ∧ i ∈ ((cfg2.win 5).blk t).view.set := by
  have hi0 : (i 0).val < 50000 := (i 0).isLt
  have hi1 : (i 1).val < 10 := (i 1).isLt
  obtain ⟨t, q0, q1⟩ := onto2 ⟨(i 0).val / 5000, by omega⟩
  have q0' : win2_5.index t (0 : Fin 2) = (i 0).val / 5000 := q0
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 10 ≤ (i 1).val ∧ (i 1).val < win2_5.index t (1 : Fin 2) * 10 + 10; omega

/-- The output array after the launch: the dense map of the operand arrays as the region found them. -/
theorem value (c : Dev nD) : (dat2 V c).arrAt 5 cfg2.N = (Cert.ReferenceIdeal.Layers.logSoftmax (F := Ideal) (Cert.ReferenceIdeal.Layers.logits (F := Ideal) (V c main_v48) (V c main_v36) (V c main_arg16) (V c main_arg17) (V c main_arg18))) :=
  (dat2 V c).arrAt_eq_of_cover 5 _ (fun t _ => flushed2 V c t) (cover2)

end Cert.KernelIdeal.Region2

end
-- ==== Proof.Chain.lean ====
/-
  The kernel's result buffer, read back to the launch memory.

  The run's last boundary holds, at the result buffer, what the third launch left there. Going back one segment at a
  time: a launch leaves its output array at the layer's dense map of its operand arrays as it found them (the
  region modules) and every other buffer as it was; a stretch of host operations leaves the aggregate it computes at
  the mean of the neighbours' rows of the previous layer's output — the same gather, accumulating scatter and
  division the reference applies, over the edge rows and the divisor column computed once in the first stretch —
  and every buffer it does not write as it was. Composed, the result buffer holds the reference's network of the
  nineteen argument arrays.
-/
import proofs.«104926_j31714038513706_1_alg».proof.Proof.PatchedKernelIdealFrame
import proofs.«104926_j31714038513706_1_alg».proof.Proof.Region0
import proofs.«104926_j31714038513706_1_alg».proof.Proof.Region1
import proofs.«104926_j31714038513706_1_alg».proof.Proof.Region2
import proofs.«104926_j31714038513706_1_alg».proof.Proof.Layers

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem
open Cert.ReferenceIdeal.Layers (srcRow dstRow degCol aggOf64 aggOf128 agg64 agg128 dense0 dense1 logits logSoftmax net)

variable (m : (ℓ : Loc nD τ sig) → Buf (Elt Ideal) ℓ) (ρ : Dev nD → PrngReg) (c : Dev nD)

/-- No operation of a stretch writes the buffer: its contents pass through the stretch. -/
local macro "unwritten " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The first stretch: the edge rows, the divisor column, the first aggregate; the arguments untouched -/

theorem a1_0 : W1 m ρ c (Proc.devRef .tc main_arg0) = m ((c : Thread nD τ).loc main_arg0) :=
  (show StableHlo.after hostOps0 (W0 m ρ c) (Proc.devRef .tc main_arg0) = W0 m ρ c (Proc.devRef .tc main_arg0) by unwritten hostOps0).trans rfl
theorem a1_2 : W1 m ρ c (Proc.devRef .tc main_arg2) = m ((c : Thread nD τ).loc main_arg2) :=
  (show StableHlo.after hostOps0 (W0 m ρ c) (Proc.devRef .tc main_arg2) = W0 m ρ c (Proc.devRef .tc main_arg2) by unwritten hostOps0).trans rfl
theorem a1_3 : W1 m ρ c (Proc.devRef .tc main_arg3) = m ((c : Thread nD τ).loc main_arg3) :=
  (show StableHlo.after hostOps0 (W0 m ρ c) (Proc.devRef .tc main_arg3) = W0 m ρ c (Proc.devRef .tc main_arg3) by unwritten hostOps0).trans rfl
theorem a1_4 : W1 m ρ c (Proc.devRef .tc main_arg4) = m ((c : Thread nD τ).loc main_arg4) :=
  (show StableHlo.after hostOps0 (W0 m ρ c) (Proc.devRef .tc main_arg4) = W0 m ρ c (Proc.devRef .tc main_arg4) by unwritten hostOps0).trans rfl
theorem a1_5 : W1 m ρ c (Proc.devRef .tc main_arg5) = m ((c : Thread nD τ).loc main_arg5) :=
  (show StableHlo.after hostOps0 (W0 m ρ c) (Proc.devRef .tc main_arg5) = W0 m ρ c (Proc.devRef .tc main_arg5) by unwritten hostOps0).trans rfl
theorem a1_6 : W1 m ρ c (Proc.devRef .tc main_arg6) = m ((c : Thread nD τ).loc main_arg6) :=
  (show StableHlo.after hostOps0 (W0 m ρ c) (Proc.devRef .tc main_arg6) = W0 m ρ c (Proc.devRef .tc main_arg6) by unwritten hostOps0).trans rfl
theorem a1_7 : W1 m ρ c (Proc.devRef .tc main_arg7) = m ((c : Thread nD τ).loc main_arg7) :=
  (show StableHlo.after hostOps0 (W0 m ρ c) (Proc.devRef .tc main_arg7) = W0 m ρ c (Proc.devRef .tc main_arg7) by unwritten hostOps0).trans rfl
theorem a1_8 : W1 m ρ c (Proc.devRef .tc main_arg8) = m ((c : Thread nD τ).loc main_arg8) :=
  (show StableHlo.after hostOps0 (W0 m ρ c) (Proc.devRef .tc main_arg8) = W0 m ρ c (Proc.devRef .tc main_arg8) by unwritten hostOps0).trans rfl
theorem a1_9 : W1 m ρ c (Proc.devRef .tc main_arg9) = m ((c : Thread nD τ).loc main_arg9) :=
  (show StableHlo.after hostOps0 (W0 m ρ c) (Proc.devRef .tc main_arg9) = W0 m ρ c (Proc.devRef .tc main_arg9) by unwritten hostOps0).trans rfl
theorem a1_10 : W1 m ρ c (Proc.devRef .tc main_arg10) = m ((c : Thread nD τ).loc main_arg10) :=
  (show StableHlo.after hostOps0 (W0 m ρ c) (Proc.devRef .tc main_arg10) = W0 m ρ c (Proc.devRef .tc main_arg10) by unwritten hostOps0).trans rfl
theorem a1_11 : W1 m ρ c (Proc.devRef .tc main_arg11) = m ((c : Thread nD τ).loc main_arg11) :=
  (show StableHlo.after hostOps0 (W0 m ρ c) (Proc.devRef .tc main_arg11) = W0 m ρ c (Proc.devRef .tc main_arg11) by unwritten hostOps0).trans rfl
theorem a1_12 : W1 m ρ c (Proc.devRef .tc main_arg12) = m ((c : Thread nD τ).loc main_arg12) :=
  (show StableHlo.after hostOps0 (W0 m ρ c) (Proc.devRef .tc main_arg12) = W0 m ρ c (Proc.devRef .tc main_arg12) by unwritten hostOps0).trans rfl
theorem a1_13 : W1 m ρ c (Proc.devRef .tc main_arg13) = m ((c : Thread nD τ).loc main_arg13) :=
  (show StableHlo.after hostOps0 (W0 m ρ c) (Proc.devRef .tc main_arg13) = W0 m ρ c (Proc.devRef .tc main_arg13) by unwritten hostOps0).trans rfl
theorem a1_14 : W1 m ρ c (Proc.devRef .tc main_arg14) = m ((c : Thread nD τ).loc main_arg14) :=
  (show StableHlo.after hostOps0 (W0 m ρ c) (Proc.devRef .tc main_arg14) = W0 m ρ c (Proc.devRef .tc main_arg14) by unwritten hostOps0).trans rfl
theorem a1_15 : W1 m ρ c (Proc.devRef .tc main_arg15) = m ((c : Thread nD τ).loc main_arg15) :=
  (show StableHlo.after hostOps0 (W0 m ρ c) (Proc.devRef .tc main_arg15) = W0 m ρ c (Proc.devRef .tc main_arg15) by unwritten hostOps0).trans rfl
theorem a1_16 : W1 m ρ c (Proc.devRef .tc main_arg16) = m ((c : Thread nD τ).loc main_arg16) :=
  (show StableHlo.after hostOps0 (W0 m ρ c) (Proc.devRef .tc main_arg16) = W0 m ρ c (Proc.devRef .tc main_arg16) by unwritten hostOps0).trans rfl
theorem a1_17 : W1 m ρ c (Proc.devRef .tc main_arg17) = m ((c : Thread nD τ).loc main_arg17) :=
  (show StableHlo.after hostOps0 (W0 m ρ c) (Proc.devRef .tc main_arg17) = W0 m ρ c (Proc.devRef .tc main_arg17) by unwritten hostOps0).trans rfl
theorem a1_18 : W1 m ρ c (Proc.devRef .tc main_arg18) = m ((c : Thread nD τ).loc main_arg18) :=
  (show StableHlo.after hostOps0 (W0 m ρ c) (Proc.devRef .tc main_arg18) = W0 m ρ c (Proc.devRef .tc main_arg18) by unwritten hostOps0).trans rfl

theorem src1 : W1 m ρ c (Proc.devRef .tc main_v1) = srcRow (F := Ideal) (m ((c : Thread nD τ).loc main_arg1)) := by
  show StableHlo.after hostOps0 (W0 m ρ c) (Proc.devRef .tc main_v1) = _
  unfold hostOps0; after_results; rfl
theorem dst1 : W1 m ρ c (Proc.devRef .tc main_v3) = dstRow (F := Ideal) (m ((c : Thread nD τ).loc main_arg1)) := by
  show StableHlo.after hostOps0 (W0 m ρ c) (Proc.devRef .tc main_v3) = _
  unfold hostOps0; after_results; rfl
theorem deg1 : W1 m ρ c (Proc.devRef .tc main_v10) = degCol (F := Ideal) (m ((c : Thread nD τ).loc main_arg1)) := by
  show StableHlo.after hostOps0 (W0 m ρ c) (Proc.devRef .tc main_v10) = _
  unfold hostOps0; after_results; rfl
set_option maxHeartbeats 8000000 in
theorem agg1 : W1 m ρ c (Proc.devRef .tc main_v22) = agg64 (F := Ideal) (m ((c : Thread nD τ).loc main_arg0)) (m ((c : Thread nD τ).loc main_arg1)) := by
  show StableHlo.after hostOps0 (W0 m ρ c) (Proc.devRef .tc main_v22) = _
  unfold hostOps0; after_results_simp; rfl

/-! ## The first launch -/

theorem k2_main_v1 : W2 m ρ c (Proc.devRef .tc main_v1) = W1 m ρ c (Proc.devRef .tc main_v1) := W2_of_ne m ρ c main_v1 (by decide)
theorem k2_main_v3 : W2 m ρ c (Proc.devRef .tc main_v3) = W1 m ρ c (Proc.devRef .tc main_v3) := W2_of_ne m ρ c main_v3 (by decide)
theorem k2_main_v10 : W2 m ρ c (Proc.devRef .tc main_v10) = W1 m ρ c (Proc.devRef .tc main_v10) := W2_of_ne m ρ c main_v10 (by decide)
theorem k2_main_arg9 : W2 m ρ c (Proc.devRef .tc main_arg9) = W1 m ρ c (Proc.devRef .tc main_arg9) := W2_of_ne m ρ c main_arg9 (by decide)
theorem k2_main_arg10 : W2 m ρ c (Proc.devRef .tc main_arg10) = W1 m ρ c (Proc.devRef .tc main_arg10) := W2_of_ne m ρ c main_arg10 (by decide)
theorem k2_main_arg11 : W2 m ρ c (Proc.devRef .tc main_arg11) = W1 m ρ c (Proc.devRef .tc main_arg11) := W2_of_ne m ρ c main_arg11 (by decide)
theorem k2_main_arg12 : W2 m ρ c (Proc.devRef .tc main_arg12) = W1 m ρ c (Proc.devRef .tc main_arg12) := W2_of_ne m ρ c main_arg12 (by decide)
theorem k2_main_arg13 : W2 m ρ c (Proc.devRef .tc main_arg13) = W1 m ρ c (Proc.devRef .tc main_arg13) := W2_of_ne m ρ c main_arg13 (by decide)
theorem k2_main_arg14 : W2 m ρ c (Proc.devRef .tc main_arg14) = W1 m ρ c (Proc.devRef .tc main_arg14) := W2_of_ne m ρ c main_arg14 (by decide)
theorem k2_main_arg15 : W2 m ρ c (Proc.devRef .tc main_arg15) = W1 m ρ c (Proc.devRef .tc main_arg15) := W2_of_ne m ρ c main_arg15 (by decide)
theorem k2_main_arg16 : W2 m ρ c (Proc.devRef .tc main_arg16) = W1 m ρ c (Proc.devRef .tc main_arg16) := W2_of_ne m ρ c main_arg16 (by decide)
theorem k2_main_arg17 : W2 m ρ c (Proc.devRef .tc main_arg17) = W1 m ρ c (Proc.devRef .tc main_arg17) := W2_of_ne m ρ c main_arg17 (by decide)
theorem k2_main_arg18 : W2 m ρ c (Proc.devRef .tc main_arg18) = W1 m ρ c (Proc.devRef .tc main_arg18) := W2_of_ne m ρ c main_arg18 (by decide)

/-- The first hidden layer's output, of the arguments. -/
def H0 : (⟨Cert.ReferenceIdeal.S50000x128, .f32⟩ : BufTy).Contents (Elt Ideal) := (dense0 (F := Ideal) (agg64 (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))

theorem h0_eq : W2 m ρ c (Proc.devRef .tc main_v23) = H0 m c := by
  refine (W2_arr m ρ c 9).trans ((Region0.value (V1 m ρ) c).trans ?_)
  show dense0 (F := Ideal) (W1 m ρ c (Proc.devRef .tc main_v22)) (W1 m ρ c (Proc.devRef .tc main_arg0)) (W1 m ρ c (Proc.devRef .tc main_arg2)) (W1 m ρ c (Proc.devRef .tc main_arg3)) (W1 m ρ c (Proc.devRef .tc main_arg4)) (W1 m ρ c (Proc.devRef .tc main_arg5)) (W1 m ρ c (Proc.devRef .tc main_arg6)) (W1 m ρ c (Proc.devRef .tc main_arg7)) (W1 m ρ c (Proc.devRef .tc main_arg8)) = _
  rw [agg1, a1_0, a1_2, a1_3, a1_4, a1_5, a1_6, a1_7, a1_8]
  rfl

/-! ## The second stretch and launch -/

theorem k3_main_v23 : W3 m ρ c (Proc.devRef .tc main_v23) = W2 m ρ c (Proc.devRef .tc main_v23) := by
  show StableHlo.after hostOps1 (W2 m ρ c) (Proc.devRef .tc main_v23) = W2 m ρ c (Proc.devRef .tc main_v23)
  unwritten hostOps1
theorem k3_main_v1 : W3 m ρ c (Proc.devRef .tc main_v1) = W2 m ρ c (Proc.devRef .tc main_v1) := by
  show StableHlo.after hostOps1 (W2 m ρ c) (Proc.devRef .tc main_v1) = W2 m ρ c (Proc.devRef .tc main_v1)
  unwritten hostOps1
theorem k3_main_v3 : W3 m ρ c (Proc.devRef .tc main_v3) = W2 m ρ c (Proc.devRef .tc main_v3) := by
  show StableHlo.after hostOps1 (W2 m ρ c) (Proc.devRef .tc main_v3) = W2 m ρ c (Proc.devRef .tc main_v3)
  unwritten hostOps1
theorem k3_main_v10 : W3 m ρ c (Proc.devRef .tc main_v10) = W2 m ρ c (Proc.devRef .tc main_v10) := by
  show StableHlo.after hostOps1 (W2 m ρ c) (Proc.devRef .tc main_v10) = W2 m ρ c (Proc.devRef .tc main_v10)
  unwritten hostOps1
theorem k3_main_arg9 : W3 m ρ c (Proc.devRef .tc main_arg9) = W2 m ρ c (Proc.devRef .tc main_arg9) := by
  show StableHlo.after hostOps1 (W2 m ρ c) (Proc.devRef .tc main_arg9) = W2 m ρ c (Proc.devRef .tc main_arg9)
  unwritten hostOps1
theorem k3_main_arg10 : W3 m ρ c (Proc.devRef .tc main_arg10) = W2 m ρ c (Proc.devRef .tc main_arg10) := by
  show StableHlo.after hostOps1 (W2 m ρ c) (Proc.devRef .tc main_arg10) = W2 m ρ c (Proc.devRef .tc main_arg10)
  unwritten hostOps1
theorem k3_main_arg11 : W3 m ρ c (Proc.devRef .tc main_arg11) = W2 m ρ c (Proc.devRef .tc main_arg11) := by
  show StableHlo.after hostOps1 (W2 m ρ c) (Proc.devRef .tc main_arg11) = W2 m ρ c (Proc.devRef .tc main_arg11)
  unwritten hostOps1
theorem k3_main_arg12 : W3 m ρ c (Proc.devRef .tc main_arg12) = W2 m ρ c (Proc.devRef .tc main_arg12) := by
  show StableHlo.after hostOps1 (W2 m ρ c) (Proc.devRef .tc main_arg12) = W2 m ρ c (Proc.devRef .tc main_arg12)
  unwritten hostOps1
theorem k3_main_arg13 : W3 m ρ c (Proc.devRef .tc main_arg13) = W2 m ρ c (Proc.devRef .tc main_arg13) := by
  show StableHlo.after hostOps1 (W2 m ρ c) (Proc.devRef .tc main_arg13) = W2 m ρ c (Proc.devRef .tc main_arg13)
  unwritten hostOps1
theorem k3_main_arg14 : W3 m ρ c (Proc.devRef .tc main_arg14) = W2 m ρ c (Proc.devRef .tc main_arg14) := by
  show StableHlo.after hostOps1 (W2 m ρ c) (Proc.devRef .tc main_arg14) = W2 m ρ c (Proc.devRef .tc main_arg14)
  unwritten hostOps1
theorem k3_main_arg15 : W3 m ρ c (Proc.devRef .tc main_arg15) = W2 m ρ c (Proc.devRef .tc main_arg15) := by
  show StableHlo.after hostOps1 (W2 m ρ c) (Proc.devRef .tc main_arg15) = W2 m ρ c (Proc.devRef .tc main_arg15)
  unwritten hostOps1
theorem k3_main_arg16 : W3 m ρ c (Proc.devRef .tc main_arg16) = W2 m ρ c (Proc.devRef .tc main_arg16) := by
  show StableHlo.after hostOps1 (W2 m ρ c) (Proc.devRef .tc main_arg16) = W2 m ρ c (Proc.devRef .tc main_arg16)
  unwritten hostOps1
theorem k3_main_arg17 : W3 m ρ c (Proc.devRef .tc main_arg17) = W2 m ρ c (Proc.devRef .tc main_arg17) := by
  show StableHlo.after hostOps1 (W2 m ρ c) (Proc.devRef .tc main_arg17) = W2 m ρ c (Proc.devRef .tc main_arg17)
  unwritten hostOps1
theorem k3_main_arg18 : W3 m ρ c (Proc.devRef .tc main_arg18) = W2 m ρ c (Proc.devRef .tc main_arg18) := by
  show StableHlo.after hostOps1 (W2 m ρ c) (Proc.devRef .tc main_arg18) = W2 m ρ c (Proc.devRef .tc main_arg18)
  unwritten hostOps1
theorem a3_9 : W3 m ρ c (Proc.devRef .tc main_arg9) = m ((c : Thread nD τ).loc main_arg9) :=
  (k3_main_arg9 m ρ c).trans ((k2_main_arg9 m ρ c).trans (a1_9 m ρ c))
theorem a3_10 : W3 m ρ c (Proc.devRef .tc main_arg10) = m ((c : Thread nD τ).loc main_arg10) :=
  (k3_main_arg10 m ρ c).trans ((k2_main_arg10 m ρ c).trans (a1_10 m ρ c))
theorem a3_11 : W3 m ρ c (Proc.devRef .tc main_arg11) = m ((c : Thread nD τ).loc main_arg11) :=
  (k3_main_arg11 m ρ c).trans ((k2_main_arg11 m ρ c).trans (a1_11 m ρ c))
theorem a3_12 : W3 m ρ c (Proc.devRef .tc main_arg12) = m ((c : Thread nD τ).loc main_arg12) :=
  (k3_main_arg12 m ρ c).trans ((k2_main_arg12 m ρ c).trans (a1_12 m ρ c))
theorem a3_13 : W3 m ρ c (Proc.devRef .tc main_arg13) = m ((c : Thread nD τ).loc main_arg13) :=
  (k3_main_arg13 m ρ c).trans ((k2_main_arg13 m ρ c).trans (a1_13 m ρ c))
theorem a3_14 : W3 m ρ c (Proc.devRef .tc main_arg14) = m ((c : Thread nD τ).loc main_arg14) :=
  (k3_main_arg14 m ρ c).trans ((k2_main_arg14 m ρ c).trans (a1_14 m ρ c))
theorem a3_15 : W3 m ρ c (Proc.devRef .tc main_arg15) = m ((c : Thread nD τ).loc main_arg15) :=
  (k3_main_arg15 m ρ c).trans ((k2_main_arg15 m ρ c).trans (a1_15 m ρ c))

set_option maxHeartbeats 8000000 in
theorem read3 : W3 m ρ c (Proc.devRef .tc main_v35)
    = aggOf128 (F := Ideal) (W2 m ρ c (Proc.devRef .tc main_v23)) (W2 m ρ c (Proc.devRef .tc main_v1)) (W2 m ρ c (Proc.devRef .tc main_v3)) (W2 m ρ c (Proc.devRef .tc main_v10)) := by
  show StableHlo.after hostOps1 (W2 m ρ c) (Proc.devRef .tc main_v35) = _
  unfold hostOps1; after_results_simp; rfl

theorem agg3 : W3 m ρ c (Proc.devRef .tc main_v35) = agg128 (F := Ideal) (H0 m c) (m ((c : Thread nD τ).loc main_arg1)) := by
  rw [read3, h0_eq, k2_main_v1, k2_main_v3, k2_main_v10, src1, dst1, deg1]
  rfl

theorem k4_main_v1 : W4 m ρ c (Proc.devRef .tc main_v1) = W3 m ρ c (Proc.devRef .tc main_v1) := W4_of_ne m ρ c main_v1 (by decide)
theorem k4_main_v3 : W4 m ρ c (Proc.devRef .tc main_v3) = W3 m ρ c (Proc.devRef .tc main_v3) := W4_of_ne m ρ c main_v3 (by decide)
theorem k4_main_v10 : W4 m ρ c (Proc.devRef .tc main_v10) = W3 m ρ c (Proc.devRef .tc main_v10) := W4_of_ne m ρ c main_v10 (by decide)
theorem k4_main_arg16 : W4 m ρ c (Proc.devRef .tc main_arg16) = W3 m ρ c (Proc.devRef .tc main_arg16) := W4_of_ne m ρ c main_arg16 (by decide)
theorem k4_main_arg17 : W4 m ρ c (Proc.devRef .tc main_arg17) = W3 m ρ c (Proc.devRef .tc main_arg17) := W4_of_ne m ρ c main_arg17 (by decide)
theorem k4_main_arg18 : W4 m ρ c (Proc.devRef .tc main_arg18) = W3 m ρ c (Proc.devRef .tc main_arg18) := W4_of_ne m ρ c main_arg18 (by decide)

/-- The second hidden layer's output, of the arguments. -/
def H1 : (⟨Cert.ReferenceIdeal.S50000x128, .f32⟩ : BufTy).Contents (Elt Ideal) :=
  dense1 (F := Ideal) (agg128 (H0 m c) (m ((c : Thread nD τ).loc main_arg1))) (H0 m c) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

theorem h1_eq : W4 m ρ c (Proc.devRef .tc main_v36) = H1 m c := by
  refine (W4_arr m ρ c 9).trans ((Region1.value (V3 m ρ) c).trans ?_)
  show dense1 (F := Ideal) (W3 m ρ c (Proc.devRef .tc main_v35)) (W3 m ρ c (Proc.devRef .tc main_v23)) (W3 m ρ c (Proc.devRef .tc main_arg9)) (W3 m ρ c (Proc.devRef .tc main_arg10)) (W3 m ρ c (Proc.devRef .tc main_arg11)) (W3 m ρ c (Proc.devRef .tc main_arg12)) (W3 m ρ c (Proc.devRef .tc main_arg13)) (W3 m ρ c (Proc.devRef .tc main_arg14)) (W3 m ρ c (Proc.devRef .tc main_arg15)) = _
  rw [agg3, k3_main_v23, h0_eq, a3_9, a3_10, a3_11, a3_12, a3_13, a3_14, a3_15]
  rfl

/-! ## The third stretch and launch -/

theorem k5_main_v36 : W5 m ρ c (Proc.devRef .tc main_v36) = W4 m ρ c (Proc.devRef .tc main_v36) := by
  show StableHlo.after hostOps2 (W4 m ρ c) (Proc.devRef .tc main_v36) = W4 m ρ c (Proc.devRef .tc main_v36)
  unwritten hostOps2
theorem k5_main_arg16 : W5 m ρ c (Proc.devRef .tc main_arg16) = W4 m ρ c (Proc.devRef .tc main_arg16) := by
  show StableHlo.after hostOps2 (W4 m ρ c) (Proc.devRef .tc main_arg16) = W4 m ρ c (Proc.devRef .tc main_arg16)
  unwritten hostOps2
theorem k5_main_arg17 : W5 m ρ c (Proc.devRef .tc main_arg17) = W4 m ρ c (Proc.devRef .tc main_arg17) := by
  show StableHlo.after hostOps2 (W4 m ρ c) (Proc.devRef .tc main_arg17) = W4 m ρ c (Proc.devRef .tc main_arg17)
  unwritten hostOps2
theorem k5_main_arg18 : W5 m ρ c (Proc.devRef .tc main_arg18) = W4 m ρ c (Proc.devRef .tc main_arg18) := by
  show StableHlo.after hostOps2 (W4 m ρ c) (Proc.devRef .tc main_arg18) = W4 m ρ c (Proc.devRef .tc main_arg18)
  unwritten hostOps2
theorem a5_16 : W5 m ρ c (Proc.devRef .tc main_arg16) = m ((c : Thread nD τ).loc main_arg16) :=
  (k5_main_arg16 m ρ c).trans ((k4_main_arg16 m ρ c).trans ((k3_main_arg16 m ρ c).trans ((k2_main_arg16 m ρ c).trans (a1_16 m ρ c))))
theorem a5_17 : W5 m ρ c (Proc.devRef .tc main_arg17) = m ((c : Thread nD τ).loc main_arg17) :=
  (k5_main_arg17 m ρ c).trans ((k4_main_arg17 m ρ c).trans ((k3_main_arg17 m ρ c).trans ((k2_main_arg17 m ρ c).trans (a1_17 m ρ c))))
theorem a5_18 : W5 m ρ c (Proc.devRef .tc main_arg18) = m ((c : Thread nD τ).loc main_arg18) :=
  (k5_main_arg18 m ρ c).trans ((k4_main_arg18 m ρ c).trans ((k3_main_arg18 m ρ c).trans ((k2_main_arg18 m ρ c).trans (a1_18 m ρ c))))

set_option maxHeartbeats 8000000 in
theorem read5 : W5 m ρ c (Proc.devRef .tc main_v48)
    = aggOf128 (F := Ideal) (W4 m ρ c (Proc.devRef .tc main_v36)) (W4 m ρ c (Proc.devRef .tc main_v1)) (W4 m ρ c (Proc.devRef .tc main_v3)) (W4 m ρ c (Proc.devRef .tc main_v10)) := by
  show StableHlo.after hostOps2 (W4 m ρ c) (Proc.devRef .tc main_v48) = _
  unfold hostOps2; after_results_simp; rfl

theorem agg5 : W5 m ρ c (Proc.devRef .tc main_v48) = agg128 (F := Ideal) (H1 m c) (m ((c : Thread nD τ).loc main_arg1)) := by
  rw [read5, h1_eq, k4_main_v1, k4_main_v3, k4_main_v10, k3_main_v1, k3_main_v3, k3_main_v10,
    k2_main_v1, k2_main_v3, k2_main_v10, src1, dst1, deg1]
  rfl

/-- The result buffer at the last boundary: the network of the argument arrays. -/
theorem result_eq : W6 m ρ c (Proc.devRef .tc main_v49)
    = net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 5).trans ((Region2.value (V5 m ρ) c).trans ?_)
  show logSoftmax (F := Ideal) (logits (W5 m ρ c (Proc.devRef .tc main_v48)) (W5 m ρ c (Proc.devRef .tc main_v36)) (W5 m ρ c (Proc.devRef .tc main_arg16)) (W5 m ρ c (Proc.devRef .tc main_arg17)) (W5 m ρ c (Proc.devRef .tc main_arg18))) = _
  rw [agg5, k5_main_v36, h1_eq, a5_16, a5_17, a5_18]
  rfl

end Cert.KernelIdeal.Chain

end
-- ==== Proof.RefRun.lean ====
/-
  The reference's run, read back.

  The reference is one straight line of 126 host operations (the three function calls inlined), so every weakly
  fair execution terminates with each buffer at the fold of the operations over the launch memory. Read at the result
  buffer, that fold is the network of Layers.lean applied to the nineteen argument buffers: each operation's result is
  its function of its operands' contents (an inlined call's buffers are read through identity transports, removed
  first), and the definitions of Layers.lean spell exactly those functions in the program's own order. Read at an argument buffer, which no operation writes, it is the launch contents.
-/
import proofs.«104926_j31714038513706_1_alg».proof.Proof.PatchedReferenceIdealRun
import proofs.«104926_j31714038513706_1_alg».proof.Proof.Layers

noncomputable section

namespace Cert.ReferenceIdeal.RefRun

open Cert.ReferenceIdeal Cert.ReferenceIdeal.Gen Cert.ReferenceIdeal.ValueP Cert.ReferenceIdeal.Layers
open Idealize.ShloMosaic Idealize.ShloMosaic.TcCoe Idealize.SL.Sem Idealize.ShloMosaic.StableHlo

variable {F : FTy → Type} [FloatOps F]

set_option maxRecDepth 65536 in
set_option maxHeartbeats 50400000 in
/-- The result buffer after the 126 operations, from any contents: the network of the argument buffers' contents. -/
theorem read_result (V : Valuation τ sig (Elt F)) :
    after (ops (F := F)) V (Proc.devRef .tc main_v93)
      = net (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  after_results_simp
  simp only [TRef.toBuf, TRef.ofBuf, cast_eq]
  simp only [net, logSoftmax, shifted, logits, dense1, dense0, bnRelu, bnScale, rows128, agg128, agg64, aggOf128, aggOf64, idxOf,
    degCol, srcRow, dstRow]
  rfl

set_option maxRecDepth 65536 in
set_option maxHeartbeats 50400000 in
/-- Every weakly fair execution of the reference terminates with its result at the network of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93)
        = net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v93).trans ((read_result (launchContents m c)).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl)⟩)
    (run_seq scopedRefs_eq scopedSems_eq defs main (fun _ => ops) main_eq (fun _ => ops_sub) m ρ)

end Cert.ReferenceIdeal.RefRun

end
-- ==== Proof.lean ====
/-
  A three-layer GraphSAGE network on 50000 nodes and 800000 edges: the kernel program against its jnp reference.

  Both programs aggregate with the same host operations — gather the source rows, scatter-add them onto the
  destination nodes, divide by max(indegree, 1) — and differ only in the dense part of each layer: the reference
  applies `dot_general`, broadcasts and pointwise operations to whole [50000, ·] arrays; the kernel program launches,
  per layer, one row-tiled kernel (ten tiles of 5000 rows) that casts its operands to bfloat16, multiplies into zero
  accumulators, adds the bias, and either normalises and clamps (hidden layers) or takes the log-softmax of the ten
  logits (output layer). At the extended reals a change of float format is the identity and a product into a zero
  accumulator is the plain sum, so tile by tile the kernel writes exactly the reference's dense map of the same
  operand arrays (Region0–2.lean over KBody0–2.lean and RefDense.lean; the entry formulas are RowMaps.lean's); the
  only algebra is re-associating a·Wl + x·Wr + b, `max (-∞) y = y` and `0 + y = y` — nothing that needs finite inputs.
  Chain.lean reads the kernel program's result buffer back through its six segments to the reference's network of
  the arguments (Layers.lean's `net`), KRun.lean names that buffer in the run, and RefRun.lean reads the reference's
  run back to the same `net`. The three frames are the launch-and-segments certificates (for the two kernel
  programs) and the reference's run with its result dropped; the idealization's ledger is empty.
-/
import proofs.«104926_j31714038513706_1_alg».proof.Defs
import proofs.«104926_j31714038513706_1_alg».proof.Proof.Gen.Kernel
import proofs.«104926_j31714038513706_1_alg».proof.Proof.Gen.KernelIdeal
import proofs.«104926_j31714038513706_1_alg».proof.Proof.Gen.ReferenceIdeal
import proofs.«104926_j31714038513706_1_alg».proof.Proof.Gen.Pre_finite_inputs
import proofs.«104926_j31714038513706_1_alg».proof.Proof.PatchedKernelFrame
import proofs.«104926_j31714038513706_1_alg».proof.Proof.PatchedKernelIdealFrame
import proofs.«104926_j31714038513706_1_alg».proof.Proof.KRun
import proofs.«104926_j31714038513706_1_alg».proof.Proof.Chain
import proofs.«104926_j31714038513706_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing that needs a witness. -/
theorem preserves : Cert.preserves_Kernel_KernelIdeal := trivial

/-- From memories agreeing on the nineteen arguments both idealized programs end with the network of the arguments
    in their result buffers. -/
theorem algebraic : Cert.algebraic_KernelIdeal_ReferenceIdeal := by
  intro m ρ m' ρ' _ hagree
  refine ⟨fun c => Cert.ReferenceIdeal.Layers.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Chain.result_eq m ρ c), (h c).2⟩) (Cert.KernelIdeal.KRun.run m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
